-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S64 .f32) (main_arg9 : FVec F S128x64 .f32) (main_arg10 : FVec F S128x64 .f32) (main_arg11 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S64x128 .f32) (main_arg6 : FVec F S128 .f32) (main_arg7 : FVec F S128x64 .f32) (main_arg8 : FVec F S64 .f32) (main_arg9 : FVec F S128x64 .f32) (main_arg10 : FVec F S128x64 .f32) (main_arg11 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x128 .f32) (main_arg3 : FVec F S128 .f32) (main_arg4 : FVec F S64x128 .f32) (main_arg5 : FVec F S64x128 .f32) (main_arg6 : FVec F S128 .f32) (main_arg7 : FVec F S128x64 .f32) (main_arg8 : FVec F S64 .f32) (main_arg9 : FVec F S128x64 .f32) (main_arg10 : FVec F S128x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S1x64 : Shape := ⟨2, ![1, 64]⟩

abbrev nBuf : Space → Nat
  | .hbm => 67
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S64x128, .f32⟩
  | .hbm, ⟨45, _⟩ => ⟨S128, .f32⟩
  | .hbm, ⟨46, _⟩ => ⟨S1x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S128x64, .f32⟩
  | .hbm, ⟨64, _⟩ => ⟨S64, .f32⟩
  | .hbm, ⟨65, _⟩ => ⟨S1x64, .f32⟩
  | .hbm, ⟨66, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel program's run with its result array named.

  The program is four segments: a stretch of host operations, the first layer's region, a second stretch, the second
  layer's region. The buffer contents at each boundary are a fold from the launch memory: a stretch applies its
  operations; a region leaves each of its arrays at what its write-backs fold to and every other buffer as entered. At
  the return every buffer that is not scoped to a region holds the last boundary's contents `W4`; read at the result
  array that is the second region's output, read at an argument it walks back to the launch memory. So every weakly
  fair execution terminates, nothing faulting, with the result array at `W4`'s value there and the arguments unchanged.
-/
import proofs.«150517_j41051297415239_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four segments from the launch, its last thread state read against the final state: the result array
    holds the last boundary's contents, each argument its launch contents. -/
theorem run_named : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Whole

end
-- ==== Proof.LibDenseSpec.lean ====
/-
  The three dense stages of the two-layer graph convolution network, as whole-array functions on extended reals.

  A node-feature matrix `A` of `R` rows is mapped row by row, so a stage's entry at row `r` depends on row `r`
  of its input only:
    * `linear X W`            — the product `X · W`;
    * `reluLinear A b W`      — `relu (A + b) · W`, the bias `b` added to every row;
    * `reluLinearLogistic A b W β` — `σ (relu (A + b) · W + β)`, with `σ t = 1 / (1 + e⁻ᵗ)`.
  The zero of the rectifier is kept as the all-zero 32-bit word read at the ideal values: the same word stands on both
  sides of every equation below and is never evaluated.
-/
import Idealize.ShloMosaic.PureOps.Ideal
import Idealize.ShloMosaic.Lib.ValueIdx

noncomputable section

namespace Cert.Gcn

open Idealize.ShloMosaic Idealize.ShloMosaic.ValueIdx

variable {R K N : ℕ}

/-- The matrix product: entry `(r, c)` is the sum over `k` of `X[r,k] * W[k,c]`. -/
def linear (X : FVec Ideal ⟨2, ![R, K]⟩ .f32) (W : FVec Ideal ⟨2, ![K, N]⟩ .f32) : FVec Ideal ⟨2, ![R, N]⟩ .f32 :=
  fun i => ∑ k : Fin K, X (ix2 (i 0) k) * W (ix2 k (i 1))

/-- A row bias added and the rectifier applied, entry by entry. -/
def biasRelu (A : FVec Ideal ⟨2, ![R, K]⟩ .f32) (b : FVec Ideal ⟨1, ![K]⟩ .f32) : FVec Ideal ⟨2, ![R, K]⟩ .f32 :=
  fun i => max (A i + b (ix1 (i 1))) (Ideal.ofBits .f32 0x00000000#32)

/-- `relu (A + b) · W`. -/
def reluLinear (A : FVec Ideal ⟨2, ![R, K]⟩ .f32) (b : FVec Ideal ⟨1, ![K]⟩ .f32) (W : FVec Ideal ⟨2, ![K, N]⟩ .f32) :
    FVec Ideal ⟨2, ![R, N]⟩ .f32 :=
  linear (biasRelu A b) W

/-- `σ (relu (A + b) · W + β)` for a one-column `W` and a one-entry `β`. -/
def reluLinearLogistic (A : FVec Ideal ⟨2, ![R, K]⟩ .f32) (b : FVec Ideal ⟨1, ![K]⟩ .f32) (W : FVec Ideal ⟨2, ![K, 1]⟩ .f32)
    (β : FVec Ideal ⟨1, ![1]⟩ .f32) : FVec Ideal ⟨2, ![R, 1]⟩ .f32 :=
  fun i => Ideal.logistic (reluLinear A b W i + β (ix1 (0 : Fin 1)))

theorem linear_ix2 (X : FVec Ideal ⟨2, ![R, K]⟩ .f32) (W : FVec Ideal ⟨2, ![K, N]⟩ .f32) (r : Fin R) (c : Fin N) :
    linear X W (ix2 r c) = ∑ k : Fin K, X (ix2 r k) * W (ix2 k c) := rfl

theorem biasRelu_ix2 (A : FVec Ideal ⟨2, ![R, K]⟩ .f32) (b : FVec Ideal ⟨1, ![K]⟩ .f32) (r : Fin R) (k : Fin K) :
    biasRelu A b (ix2 r k) = max (A (ix2 r k) + b (ix1 k)) (Ideal.ofBits .f32 0x00000000#32) := rfl

/-- Two inputs that agree on row `r` give the same product row. -/
theorem linear_congr_row (X X' : FVec Ideal ⟨2, ![R, K]⟩ .f32) (W : FVec Ideal ⟨2, ![K, N]⟩ .f32) (r : Fin R) (c : Fin N)
    (h : ∀ k : Fin K, X (ix2 r k) = X' (ix2 r k)) : linear X W (ix2 r c) = linear X' W (ix2 r c) := by
  rw [linear_ix2, linear_ix2]
  exact Finset.sum_congr rfl fun k _ => by rw [h k]

end Cert.Gcn

end
-- ==== Proof.LibBiasRow.lean ====
/-
  A bias row added to every row of a matrix inside a kernel, read at an entry, at the ideal values.

  The bias arrives as a one-row matrix `[1, K]`. The kernel re-casts both operands to their own shapes (the identity),
  broadcasts the row down the `R` rows, adds, and — for a layer with a rectifier — takes the maximum with a splat zero.
  At entry `(p, k)` that is `A[p,k] + b[0,k]`, respectively `max (A[p,k] + b[0,k]) 0`, the `0` being the all-zero word, which
  is never evaluated. `rowOf` reads the one-row matrix as the vector of its row, so that the result is `biasRelu A (rowOf b)`
  (or `addBias A (rowOf b)`) in the vocabulary of the dense stages; the row of a vector re-cast to one row is the vector.
-/
import proofs.«150517_j41051297415239_1_alg».proof.Proof.LibDenseSpec
import Idealize.ShloMosaic.Lib.Pipeline.Value
import Idealize.ShloMosaic.Lib.ValueIdx
import Idealize.ShloMosaic.Lib.ValueLayout

noncomputable section

namespace Cert.Gcn

open Idealize.ShloMosaic Idealize.ShloMosaic.ValueIdx

variable {R K : ℕ}

/-- A row bias added, entry by entry (a layer without a rectifier). -/
def addBias (A : FVec Ideal ⟨2, ![R, K]⟩ .f32) (b : FVec Ideal ⟨1, ![K]⟩ .f32) : FVec Ideal ⟨2, ![R, K]⟩ .f32 :=
  fun i => A i + b (ix1 (i 1))

theorem addBias_ix2 (A : FVec Ideal ⟨2, ![R, K]⟩ .f32) (b : FVec Ideal ⟨1, ![K]⟩ .f32) (r : Fin R) (k : Fin K) :
    addBias A b (ix2 r k) = A (ix2 r k) + b (ix1 k) := rfl

/-- The row of a one-row matrix, as a vector. -/
def rowOf {α : Type} (b : (⟨2, ![1, K]⟩ : Shape).Idx → α) : (⟨1, ![K]⟩ : Shape).Idx → α := fun j => b (ix2 (0 : Fin 1) (j 0))

theorem rowOf_ix1 {α : Type} (b : (⟨2, ![1, K]⟩ : Shape).Idx → α) (k : Fin K) : rowOf b (ix1 k) = b (ix2 (0 : Fin 1) k) := rfl

/-- The row of a vector re-cast to a one-row matrix is the vector. -/
theorem rowOf_shapeCast {α : Type} (b : (⟨1, ![K]⟩ : Shape).Idx → α) (h : (⟨1, ![K]⟩ : Shape).ShapeCasts ⟨2, ![1, K]⟩) :
    rowOf (shapeCast ⟨2, ![1, K]⟩ b h) = b := by
  funext j
  obtain ⟨k, rfl⟩ : ∃ k : Fin K, j = ix1 k := ⟨j 0, eq_ix1 j⟩
  rw [rowOf_ix1, shapeCast_a_1a_apply]

/-- A kernel's `relu (A + b)` with the bias as a one-row block, at entry `(p, k)`. -/
theorem biasRelu_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 (rowOf x1) (ix2 p k) := by
  rw [biasRelu_ix2, rowOf_ix1, maximumf_apply, addf_apply, broadcast_apply, shapeCast_self, shapeCast_self, broadcastTo_1b_ab_apply]
  rfl

/-- A kernel's `A + b` with the bias as a one-row block, at entry `(p, k)`. -/
theorem addBias_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    addf (shapeCast ⟨2, ![R, K]⟩ x0 h1) (broadcastTo ⟨2, ![R, K]⟩ (shapeCast ⟨2, ![1, K]⟩ x1 h2) h3) (ix2 p k)
      = addBias x0 (rowOf x1) (ix2 p k) := by
  rw [addBias_ix2, rowOf_ix1, addf_apply, shapeCast_self, shapeCast_self, broadcastTo_1b_ab_apply]

end Cert.Gcn

end
-- ==== Proof.LibSageSpec.lean ====
/-
  The dense stages of a SAGE graph network (mean-aggregating layers, a mean-pooled two-layer head), as whole-array
  functions on extended reals, generic in the sizes: the layer `combine`, the head `head`, their congruence lemmas for
  reading a row block against the whole arrays, and the three-layer `network` over abstract aggregation and pooling maps.

  One SAGE layer maps node features X (R rows) and their mean-aggregated neighbour features A to
      combine A X Wl Wr b = relu (A · Wl + X · Wr + b),
  the bias b added to every row. The head maps pooled features P to
      head P W1 b1 W2 b2 = relu (P · W1 + b1) · W2 + b2.
  Sums of extended reals may be regrouped and reordered freely (addition is commutative and associative on the extended
  reals, infinities included), which is all that distinguishes the two ways the layer is written:
      (A · Wl + X · Wr) + b   and   (A · Wl + b) + X · Wr.
  The zero of the rectifier is the all-zero 32-bit word read at the ideal values; it is never evaluated.
-/
import proofs.«150517_j41051297415239_1_alg».proof.Proof.LibDenseSpec
import proofs.«150517_j41051297415239_1_alg».proof.Proof.LibBiasRow

noncomputable section

namespace Cert.Sage

open Idealize.ShloMosaic Idealize.ShloMosaic.ValueIdx Cert.Gcn

variable {R K N M : ℕ}

/-- One SAGE layer: `relu (A · Wl + X · Wr + b)`, entry by entry. -/
def combine (A X : FVec Ideal ⟨2, ![R, K]⟩ .f32) (Wl Wr : FVec Ideal ⟨2, ![K, N]⟩ .f32) (b : FVec Ideal ⟨1, ![N]⟩ .f32) :
    FVec Ideal ⟨2, ![R, N]⟩ .f32 :=
  fun i => max (linear A Wl i + linear X Wr i + b (ix1 (i 1))) (Ideal.ofBits .f32 0x00000000#32)

theorem combine_ix2 (A X : FVec Ideal ⟨2, ![R, K]⟩ .f32) (Wl Wr : FVec Ideal ⟨2, ![K, N]⟩ .f32) (b : FVec Ideal ⟨1, ![N]⟩ .f32)
    (r : Fin R) (c : Fin N) :
    combine A X Wl Wr b (ix2 r c)
      = max ((∑ k : Fin K, A (ix2 r k) * Wl (ix2 k c)) + (∑ k : Fin K, X (ix2 r k) * Wr (ix2 k c)) + b (ix1 c))
          (Ideal.ofBits .f32 0x00000000#32) := rfl

/-- The layer written with the bias added before the second product is the same function. -/
theorem combine_bias_first (A X : FVec Ideal ⟨2, ![R, K]⟩ .f32) (Wl Wr : FVec Ideal ⟨2, ![K, N]⟩ .f32) (b : FVec Ideal ⟨1, ![N]⟩ .f32)
    (r : Fin R) (c : Fin N) :
    max ((∑ k : Fin K, A (ix2 r k) * Wl (ix2 k c)) + b (ix1 c) + (∑ k : Fin K, X (ix2 r k) * Wr (ix2 k c)))
        (Ideal.ofBits .f32 0x00000000#32)
      = combine A X Wl Wr b (ix2 r c) := by
  rw [combine_ix2, add_right_comm]

/-- A row block of the layer is the layer of the whole arrays at the block's rows: when row `j 0` of the blocks `a`, `x`
    is row `i 0` of the arrays `A`, `X`, the weights and the bias are the same and the column is the same, the block's
    entry at `j` is the arrays' entry at `i`. -/
theorem combine_of_rows {Rb : ℕ} (A X : FVec Ideal ⟨2, ![R, K]⟩ .f32) (a x : FVec Ideal ⟨2, ![Rb, K]⟩ .f32)
    (Wl Wr wl wr : FVec Ideal ⟨2, ![K, N]⟩ .f32) (b b' : FVec Ideal ⟨1, ![N]⟩ .f32)
    (j : (⟨2, ![Rb, N]⟩ : Shape).Idx) (i : (⟨2, ![R, N]⟩ : Shape).Idx)
    (ha : ∀ k : Fin K, a (ix2 (j 0) k) = A (ix2 (i 0) k)) (hx : ∀ k : Fin K, x (ix2 (j 0) k) = X (ix2 (i 0) k))
    (hwl : wl = Wl) (hwr : wr = Wr) (hb : b' = b) (hc : (j 1).val = (i 1).val) :
    combine a x wl wr b' j = combine A X Wl Wr b i := by
  subst hwl hwr hb
  have hc' : j 1 = i 1 := Fin.ext hc
  unfold combine linear
  simp only [ha, hx, hc']

/-- The head: `relu (P · W1 + b1) · W2 + b2`, entry by entry. -/
def head (P : FVec Ideal ⟨2, ![R, K]⟩ .f32) (W1 : FVec Ideal ⟨2, ![K, N]⟩ .f32) (b1 : FVec Ideal ⟨1, ![N]⟩ .f32)
    (W2 : FVec Ideal ⟨2, ![N, M]⟩ .f32) (b2 : FVec Ideal ⟨1, ![M]⟩ .f32) : FVec Ideal ⟨2, ![R, M]⟩ .f32 :=
  addBias (linear (biasRelu (linear P W1) b1) W2) b2

theorem head_ix2 (P : FVec Ideal ⟨2, ![R, K]⟩ .f32) (W1 : FVec Ideal ⟨2, ![K, N]⟩ .f32) (b1 : FVec Ideal ⟨1, ![N]⟩ .f32)
    (W2 : FVec Ideal ⟨2, ![N, M]⟩ .f32) (b2 : FVec Ideal ⟨1, ![M]⟩ .f32) (r : Fin R) (c : Fin M) :
    head P W1 b1 W2 b2 (ix2 r c)
      = (∑ n : Fin N, max ((∑ k : Fin K, P (ix2 r k) * W1 (ix2 k n)) + b1 (ix1 n)) (Ideal.ofBits .f32 0x00000000#32) * W2 (ix2 n c))
          + b2 (ix1 c) := rfl

/-- The head at equal arguments. -/
theorem head_congr {p P : FVec Ideal ⟨2, ![R, K]⟩ .f32} {w1 W1 : FVec Ideal ⟨2, ![K, N]⟩ .f32} {b1 B1 : FVec Ideal ⟨1, ![N]⟩ .f32}
    {w2 W2 : FVec Ideal ⟨2, ![N, M]⟩ .f32} {b2 B2 : FVec Ideal ⟨1, ![M]⟩ .f32} {j i : (⟨2, ![R, M]⟩ : Shape).Idx}
    (hp : p = P) (h1 : w1 = W1) (hb1 : b1 = B1) (h2 : w2 = W2) (hb2 : b2 = B2) (hj : j = i) :
    head p w1 b1 w2 b2 j = head P W1 B1 W2 B2 i := by
  subst hp h1 hb1 h2 hb2 hj
  rfl

/-- One layer applied to features `h` whose neighbour aggregate is `agg h`. -/
def layerStep (agg : FVec Ideal ⟨2, ![R, K]⟩ .f32 → FVec Ideal ⟨2, ![R, K]⟩ .f32) (h : FVec Ideal ⟨2, ![R, K]⟩ .f32)
    (Wl Wr : FVec Ideal ⟨2, ![K, K]⟩ .f32) (b : FVec Ideal ⟨1, ![K]⟩ .f32) : FVec Ideal ⟨2, ![R, K]⟩ .f32 :=
  combine (agg h) h Wl Wr b

/-- The whole network: three layers over one neighbour-aggregation map `agg`, a pooling map `pool` onto `G` graphs,
    and the head. The weights are taken already transposed (input index first). -/
def network {G : ℕ} (agg : FVec Ideal ⟨2, ![R, K]⟩ .f32 → FVec Ideal ⟨2, ![R, K]⟩ .f32)
    (pool : FVec Ideal ⟨2, ![R, K]⟩ .f32 → FVec Ideal ⟨2, ![G, K]⟩ .f32)
    (x : FVec Ideal ⟨2, ![R, K]⟩ .f32)
    (W1l W1r W2l W2r W3l W3r : FVec Ideal ⟨2, ![K, K]⟩ .f32) (b1 b2 b3 : FVec Ideal ⟨1, ![K]⟩ .f32)
    (Wf1 : FVec Ideal ⟨2, ![K, N]⟩ .f32) (bf1 : FVec Ideal ⟨1, ![N]⟩ .f32)
    (Wf2 : FVec Ideal ⟨2, ![N, M]⟩ .f32) (bf2 : FVec Ideal ⟨1, ![M]⟩ .f32) : FVec Ideal ⟨2, ![G, M]⟩ .f32 :=
  head (pool (layerStep agg (layerStep agg (layerStep agg x W1l W1r b1) W2l W2r b2) W3l W3r b3)) Wf1 bf1 Wf2 bf2

end Cert.Sage

end
-- ==== Proof.LibDenseOps.lean ====
/-
  The small operations of a dense stage, read at an entry, at the ideal values.

  A bias vector `b` of length `K` is added to every row of an `R × K` matrix and the rectifier applied. A kernel spells the
  row broadcast `[K] → [1, K] → [R, K]` with a shape cast and a vector broadcast and the rectifier's zero as a scalar
  splat; the host spells the broadcast with two `broadcast_in_dim`s and the zero as a broadcast constant. Either way the
  entry at `(r, k)` is `max (A[r,k] + b[k]) 0`, the `0` being the all-zero word. The same for the one-entry bias of the
  last stage. The logistic function `σ t = 1 / (1 + e⁻ᵗ)`, spelt by the host with the word `0x3F800000` for `1`, is the
  function the kernel's single operation denotes.
-/
import proofs.«150517_j41051297415239_1_alg».proof.Proof.LibDenseSpec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn

open Idealize.ShloMosaic Idealize.ShloMosaic.ValueIdx

variable {R K : ℕ}

/-- A kernel's `relu (A + b)` at entry `(p, k)`. -/
theorem biasRelu_vector (x0 : FVec Ideal ⟨2, ![R, K]⟩ .f32) (x1 : FVec Ideal ⟨1, ![K]⟩ .f32)
    (h1 : (⟨2, ![R, K]⟩ : Shape).ShapeCasts ⟨2, ![R, K]⟩) (h2 : (⟨1, ![K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 x1 (ix2 p k) := by
  rw [biasRelu_ix2, maximumf_apply, addf_apply, broadcast_apply, shapeCast_self, broadcastTo_1b_ab_apply, shapeCast_a_1a_apply]
  rfl

/-- A length-`K` vector broadcast over the rows of an `R × K` matrix by two `broadcast_in_dim`s, at entry `(r, k)`. -/
theorem rowBroadcast_host {α : Type} (b : (⟨1, ![K]⟩ : Shape).Idx → α)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2)) (r : Fin R) (k : Fin K) :
    broadcastInDim ⟨2, ![R, K]⟩ (![0, 1] : Fin 2 → Fin 2) h2 (broadcastInDim ⟨2, ![1, K]⟩ (![1] : Fin 1 → Fin 2) h1 b) (ix2 r k) = b (ix1 k) := by
  rw [broadcastInDim_apply (![0, 1] : Fin 2 → Fin 2) h2 _ (ix2 r k) (ix2 (0 : Fin 1) k) (fun a => by
    match a with
    | ⟨0, _⟩ => rfl
    | ⟨1, _⟩ =>
      show k.val = if K = 1 then 0 else k.val
      split
      · have := k.isLt; omega
      · rfl)]
  exact broadcastInDim_apply (![1] : Fin 1 → Fin 2) h1 b (ix2 (0 : Fin 1) k) (ix1 k) (fun a => by
    match a with
    | ⟨0, _⟩ =>
      show k.val = if K = 1 then 0 else k.val
      split
      · have := k.isLt; omega
      · rfl)

/-- The host's `relu (A + b)` at entry `(r, k)`. -/
theorem biasRelu_host (a : FVec Ideal ⟨2, ![R, K]⟩ .f32) (b : FVec Ideal ⟨1, ![K]⟩ .f32)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2))
    (h3 : (⟨0, ![]⟩ : Shape).BroadcastsInDim ⟨2, ![R, K]⟩ (![] : Fin 0 → Fin 2)) (r : Fin R) (k : Fin K) :
    maximumf (addf a (broadcastInDim ⟨2, ![R, K]⟩ (![0, 1] : Fin 2 → Fin 2) h2 (broadcastInDim ⟨2, ![1, K]⟩ (![1] : Fin 1 → Fin 2) h1 b)))
        (broadcastInDim ⟨2, ![R, K]⟩ (![] : Fin 0 → Fin 2) h3 (constant (F := Ideal) ⟨0, ![]⟩ .f32 0x00000000#32)) (ix2 r k)
      = biasRelu a b (ix2 r k) := by
  rw [biasRelu_ix2, maximumf_apply, addf_apply, rowBroadcast_host b h1 h2 r k,
    broadcastInDim_apply (![] : Fin 0 → Fin 2) h3 _ (ix2 r k) ix0 (fun a => a.elim0)]
  rfl

/-- A constant broadcast to an `R × K` matrix by the host, at any entry: the constant's word. -/
theorem splat_host (h3 : (⟨0, ![]⟩ : Shape).BroadcastsInDim ⟨2, ![R, K]⟩ (![] : Fin 0 → Fin 2)) (w : BitVec 32) (i : (⟨2, ![R, K]⟩ : Shape).Idx) :
    broadcastInDim ⟨2, ![R, K]⟩ (![] : Fin 0 → Fin 2) h3 (constant (F := Ideal) ⟨0, ![]⟩ .f32 w) i = Ideal.ofBits .f32 w := by
  rw [broadcastInDim_apply (![] : Fin 0 → Fin 2) h3 _ i ix0 (fun a => a.elim0)]
  rfl

/-- The word `0x3F800000` is the number one. -/
theorem one_word : Ideal.ofBits .f32 0x3F800000#32 = 1 := by
  simp [Ideal.ofBits, Ideal.ieee, -EReal.coe_mul]; norm_num

/-- The logistic function spelt `1 / (1 + e⁻ᵗ)` with the word for one. -/
theorem logistic_spelt (t : EReal) :
    Ideal.div (Ideal.ofBits .f32 0x3F800000#32) (Ideal.ofBits .f32 0x3F800000#32 + Ideal.exp (-t)) = Ideal.logistic t := by
  rw [one_word]; rfl

/-- The host's `1 / (1 + e^(-z))` at an entry where both of its ones are the word for one: the logistic function of `z`'s
    entry. -/
theorem logistic_host {S : Shape} (one₁ one₂ z : FVec Ideal S .f32) (i : S.Idx)
    (h1 : one₁ i = Ideal.ofBits .f32 0x3F800000#32) (h2 : one₂ i = Ideal.ofBits .f32 0x3F800000#32) :
    Host.divf one₁ (addf one₂ (Host.exp (Host.negf z))) i = Ideal.logistic (z i) := by
  show Ideal.div (one₁ i) (one₂ i + Ideal.exp (-(z i))) = _
  rw [h1, h2, logistic_spelt]

end Cert.Gcn

end
-- ==== Proof.LibSageMean.lean ====
/-
  Mean aggregation in a two-layer SAGE network, on extended reals, generic in the sizes.

  A node's aggregated neighbour features `A[r, ·]` are divided by its clamped in-degree `m r = max (d r) 1`. One program
  divides, `A[r,k] / m r`; the other multiplies by the reciprocal computed once, `A[r,k] * (1 / m r)`. Division on the
  extended reals is `x / y = x * y⁻¹` whenever `y ≠ 0`, and `m r ≥ 1 > 0` whatever `d r` is (an infinity included), so
      x * (1 / m) = x * (1 * m⁻¹) = x * m⁻¹ = x / m
  for every extended real `x`: the two means are one function, with no finiteness assumed of anything.
  The number one is the word `0x3F800000`.

  The host spells the clamp and the column broadcast `m[:, None]` with `maximum` against a broadcast constant and two
  `broadcast_in_dim`s; `meanMul_host` and `meanDiv_host` read those spellings as `meanMul` and `meanDiv`.

  `network` is two layers `h ↦ relu (mean (agg h) · Wl + h · Wr + b)` over one aggregation map `agg`, which stays
  abstract: both programs gather and scatter-add with the same operations, so what it computes is never opened.
-/
import proofs.«150517_j41051297415239_1_alg».proof.Proof.LibSageSpec
import proofs.«150517_j41051297415239_1_alg».proof.Proof.LibDenseOps
import Idealize.ShloMosaic.Lib.Pipeline.Value
import Idealize.ShloMosaic.Lib.ValueIdx

noncomputable section

namespace Cert.SageMean

open Idealize.ShloMosaic Idealize.ShloMosaic.ValueIdx Cert.Gcn Cert.Sage

variable {R K : ℕ}

/-- The aggregate divided, row by row, by the clamped degree. -/
def meanDiv (A : FVec Ideal ⟨2, ![R, K]⟩ .f32) (d : FVec Ideal ⟨1, ![R]⟩ .f32) : FVec Ideal ⟨2, ![R, K]⟩ .f32 :=
  fun i => Ideal.div (A i) (max (d (ix1 (i 0))) (Ideal.ofBits .f32 0x3F800000#32))

/-- The aggregate multiplied, row by row, by the reciprocal of the clamped degree. -/
def meanMul (A : FVec Ideal ⟨2, ![R, K]⟩ .f32) (d : FVec Ideal ⟨1, ![R]⟩ .f32) : FVec Ideal ⟨2, ![R, K]⟩ .f32 :=
  fun i => A i * Ideal.div (Ideal.ofBits .f32 0x3F800000#32) (max (d (ix1 (i 0))) (Ideal.ofBits .f32 0x3F800000#32))

theorem meanDiv_ix2 (A : FVec Ideal ⟨2, ![R, K]⟩ .f32) (d : FVec Ideal ⟨1, ![R]⟩ .f32) (r : Fin R) (k : Fin K) :
    meanDiv A d (ix2 r k) = Ideal.div (A (ix2 r k)) (max (d (ix1 r)) (Ideal.ofBits .f32 0x3F800000#32)) := rfl

theorem meanMul_ix2 (A : FVec Ideal ⟨2, ![R, K]⟩ .f32) (d : FVec Ideal ⟨1, ![R]⟩ .f32) (r : Fin R) (k : Fin K) :
    meanMul A d (ix2 r k)
      = A (ix2 r k) * Ideal.div (Ideal.ofBits .f32 0x3F800000#32) (max (d (ix1 r)) (Ideal.ofBits .f32 0x3F800000#32)) := rfl

/-- Multiplying by the reciprocal of a number that is at least one is dividing by it, for every extended real. -/
theorem mul_recip_clamped (x d : EReal) :
    x * Ideal.div (Ideal.ofBits .f32 0x3F800000#32) (max d (Ideal.ofBits .f32 0x3F800000#32))
      = Ideal.div x (max d (Ideal.ofBits .f32 0x3F800000#32)) := by
  rw [one_word]
  have h : max d (1 : EReal) ≠ 0 := (lt_of_lt_of_le zero_lt_one (le_max_right d 1)).ne'
  rw [Ideal.div, Ideal.div, if_neg h, if_neg h, one_mul]

/-- The two means are one function. -/
theorem meanMul_eq_meanDiv (A : FVec Ideal ⟨2, ![R, K]⟩ .f32) (d : FVec Ideal ⟨1, ![R]⟩ .f32) : meanMul A d = meanDiv A d :=
  funext fun i => mul_recip_clamped (A i) (d (ix1 (i 0)))

/-- A length-`R` vector broadcast along the columns of an `R × K` matrix by two `broadcast_in_dim`s
    (`[R] → [R, 1] → [R, K]`), at entry `(r, k)`: the vector's entry `r`. -/
theorem colBroadcast_host {α : Type} (d : (⟨1, ![R]⟩ : Shape).Idx → α)
    (h1 : (⟨1, ![R]⟩ : Shape).BroadcastsInDim ⟨2, ![R, 1]⟩ (![0] : Fin 1 → Fin 2))
    (h2 : (⟨2, ![R, 1]⟩ : Shape).BroadcastsInDim ⟨2, ![R, K]⟩ (![0, 1] : Fin 2 → Fin 2)) (r : Fin R) (k : Fin K) :
    broadcastInDim ⟨2, ![R, K]⟩ (![0, 1] : Fin 2 → Fin 2) h2 (broadcastInDim ⟨2, ![R, 1]⟩ (![0] : Fin 1 → Fin 2) h1 d) (ix2 r k) = d (ix1 r) := by
  rw [broadcastInDim_apply (![0, 1] : Fin 2 → Fin 2) h2 _ (ix2 r k) (ix2 r (0 : Fin 1)) (fun a => by
    match a with
    | ⟨0, _⟩ =>
      show r.val = if R = 1 then 0 else r.val
      split
      · have := r.isLt; omega
      · rfl
    | ⟨1, _⟩ => rfl)]
  exact broadcastInDim_apply (![0] : Fin 1 → Fin 2) h1 d (ix2 r (0 : Fin 1)) (ix1 r) (fun a => by
    match a with
    | ⟨0, _⟩ =>
      show r.val = if R = 1 then 0 else r.val
      split
      · have := r.isLt; omega
      · rfl)

/-- A scalar constant broadcast to any shape by the host, at any index: the constant's word. -/
theorem splat_apply {t : Shape} (h : (⟨0, ![]⟩ : Shape).BroadcastsInDim t (![] : Fin 0 → Fin t.rank)) (w : BitVec 32) (i : t.Idx) :
    broadcastInDim t (![] : Fin 0 → Fin t.rank) h (constant (F := Ideal) ⟨0, ![]⟩ .f32 w) i = Ideal.ofBits .f32 w := by
  rw [broadcastInDim_apply (![] : Fin 0 → Fin t.rank) h _ i ix0 (fun a => a.elim0)]
  rfl

/-- The host's `A * (1 / max d 1)[:, None]`, its two ones any vectors that read the word for one everywhere. -/
theorem meanMul_host (A : FVec Ideal ⟨2, ![R, K]⟩ .f32) (d one₁ one₂ : FVec Ideal ⟨1, ![R]⟩ .f32)
    (h1 : (⟨1, ![R]⟩ : Shape).BroadcastsInDim ⟨2, ![R, 1]⟩ (![0] : Fin 1 → Fin 2))
    (h2 : (⟨2, ![R, 1]⟩ : Shape).BroadcastsInDim ⟨2, ![R, K]⟩ (![0, 1] : Fin 2 → Fin 2))
    (ho₁ : ∀ j, one₁ j = Ideal.ofBits .f32 0x3F800000#32) (ho₂ : ∀ j, one₂ j = Ideal.ofBits .f32 0x3F800000#32) :
    mulf A (broadcastInDim ⟨2, ![R, K]⟩ (![0, 1] : Fin 2 → Fin 2) h2
        (broadcastInDim ⟨2, ![R, 1]⟩ (![0] : Fin 1 → Fin 2) h1 (Host.divf one₁ (maximumf d one₂))))
      = meanMul A d := by
  funext i
  obtain ⟨r, k, rfl⟩ : ∃ (r : Fin R) (k : Fin K), i = ix2 r k := ⟨i 0, i 1, eq_ix2 i⟩
  rw [meanMul_ix2, mulf_apply, colBroadcast_host]
  show A (ix2 r k) * Ideal.div (one₁ (ix1 r)) (max (d (ix1 r)) (one₂ (ix1 r))) = _
  rw [ho₁, ho₂]

/-- The host's `A / (max d 1)[:, None]`. -/
theorem meanDiv_host (A : FVec Ideal ⟨2, ![R, K]⟩ .f32) (d one₂ : FVec Ideal ⟨1, ![R]⟩ .f32)
    (h1 : (⟨1, ![R]⟩ : Shape).BroadcastsInDim ⟨2, ![R, 1]⟩ (![0] : Fin 1 → Fin 2))
    (h2 : (⟨2, ![R, 1]⟩ : Shape).BroadcastsInDim ⟨2, ![R, K]⟩ (![0, 1] : Fin 2 → Fin 2))
    (ho₂ : ∀ j, one₂ j = Ideal.ofBits .f32 0x3F800000#32) :
    Host.divf A (broadcastInDim ⟨2, ![R, K]⟩ (![0, 1] : Fin 2 → Fin 2) h2
        (broadcastInDim ⟨2, ![R, 1]⟩ (![0] : Fin 1 → Fin 2) h1 (maximumf d one₂)))
      = meanDiv A d := by
  funext i
  obtain ⟨r, k, rfl⟩ : ∃ (r : Fin R) (k : Fin K), i = ix2 r k := ⟨i 0, i 1, eq_ix2 i⟩
  rw [meanDiv_ix2]
  show Ideal.div (A (ix2 r k)) (broadcastInDim ⟨2, ![R, K]⟩ (![0, 1] : Fin 2 → Fin 2) h2
        (broadcastInDim ⟨2, ![R, 1]⟩ (![0] : Fin 1 → Fin 2) h1 (maximumf d one₂)) (ix2 r k)) = _
  rw [colBroadcast_host, maximumf_apply, ho₂]

/-- One layer: the features `h`, their aggregate `agg h` averaged by the clamped degrees `d`, combined. -/
def layer (agg : FVec Ideal ⟨2, ![R, K]⟩ .f32 → FVec Ideal ⟨2, ![R, K]⟩ .f32) (d : FVec Ideal ⟨1, ![R]⟩ .f32)
    (h : FVec Ideal ⟨2, ![R, K]⟩ .f32) (Wl Wr : FVec Ideal ⟨2, ![K, K]⟩ .f32) (b : FVec Ideal ⟨1, ![K]⟩ .f32) :
    FVec Ideal ⟨2, ![R, K]⟩ .f32 :=
  combine (meanDiv (agg h) d) h Wl Wr b

/-- The layer with the mean taken by the reciprocal is the same layer. -/
theorem layer_of_meanMul (agg : FVec Ideal ⟨2, ![R, K]⟩ .f32 → FVec Ideal ⟨2, ![R, K]⟩ .f32) (d : FVec Ideal ⟨1, ![R]⟩ .f32)
    (h : FVec Ideal ⟨2, ![R, K]⟩ .f32) (Wl Wr : FVec Ideal ⟨2, ![K, K]⟩ .f32) (b : FVec Ideal ⟨1, ![K]⟩ .f32) :
    combine (meanMul (agg h) d) h Wl Wr b = layer agg d h Wl Wr b := by
  rw [meanMul_eq_meanDiv]; rfl

/-- The two-layer network. -/
def network (agg : FVec Ideal ⟨2, ![R, K]⟩ .f32 → FVec Ideal ⟨2, ![R, K]⟩ .f32) (d : FVec Ideal ⟨1, ![R]⟩ .f32)
    (x : FVec Ideal ⟨2, ![R, K]⟩ .f32) (W1l W1r W2l W2r : FVec Ideal ⟨2, ![K, K]⟩ .f32) (b1 b2 : FVec Ideal ⟨1, ![K]⟩ .f32) :
    FVec Ideal ⟨2, ![R, K]⟩ .f32 :=
  layer agg d (layer agg d x W1l W1r b1) W2l W2r b2

end Cert.SageMean

end
-- ==== Proof.HostK.lean ====
/-
  The host side of the kernel program: what its two stretches of host operations leave in the buffers the regions read.

  From the edge list (two rows of node ids, one column per edge) the program takes the source ids (row 0) and the
  destination ids (row 1). A node's in-degree is a scatter-add of ones at the destination ids into zeros; its reciprocal
  `1 / max (deg, 1)` is kept as a column. The neighbour aggregate of a feature matrix `h` gathers the rows of `h` at the
  source ids (a negative id wrapped by the node count first, as array indexing does) and scatter-adds them at the
  destination ids into zeros; the mean multiplies the aggregate by the reciprocal column broadcast along the features.
  Besides, each stretch adds the root and skip weights, adds the two biases and re-casts the bias to one row.

  Every lemma reads one buffer after a stretch run from ANY contents `W`: the second stretch starts from what the first
  region leaves, which is not the launch memory.
-/
import proofs.«150517_j41051297415239_1_alg».proof.Proof.Gen.KernelIdeal.Frame
import proofs.«150517_j41051297415239_1_alg».proof.Proof.LibSageMean
import Idealize.ShloMosaic.Lib.StableHlo.Run
import Idealize.ShloMosaic.PureOps.Ideal

set_option maxRecDepth 16384

noncomputable section

namespace Cert.KernelIdeal.HostSide

open Cert.KernelIdeal Cert.KernelIdeal.Gen Idealize.ShloMosaic Idealize.ShloMosaic.TcCoe Idealize.ShloMosaic.StableHlo
open Idealize.ShloMosaic.ValueIdx

/-- An integer array and a float array of the ideal reading, by shape. -/
abbrev IV32 (S : Shape) := IVec S 32
abbrev FV32 (S : Shape) := FVec Ideal S .f32

/-- Row 0 of the edge list: every edge's source node. -/
def srcIds (ei : IV32 S2x1600000) : IV32 S1600000 :=
  shapeCast S1600000 (extractStridedSlice S1x1600000 ![0, 0] ei slices_S2x1600000_S1x1600000_0_0) shapeCasts_S1x1600000_S1600000

/-- Row 1 of the edge list: every edge's destination node. -/
def dstIds (ei : IV32 S2x1600000) : IV32 S1600000 :=
  shapeCast S1600000 (extractStridedSlice S1x1600000 ![1, 0] ei slices_S2x1600000_S1x1600000_1_0) shapeCasts_S1x1600000_S1600000

/-- An id vector as a column of start indices. -/
def col (s : IV32 S1600000) : IV32 S1600000x1 := broadcastInDim S1600000x1 ![0] bcast_S1600000_S1600000x1_0 s

/-- An id vector with negative ids wrapped by the node count, as a column of start indices. -/
def wrapCol (s : IV32 S1600000) : IV32 S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The in-degrees: ones scatter-added at the destination ids into zeros. -/
def deg (d : IV32 S1600000) : FV32 S100000 :=
  Host.scatterAdd scatter_S100000_S1600000x1_S1600000_n_0_0_1
    (broadcastInDim S100000 ![] bcast_S_S100000 (constant (F := Ideal) S_ .f32 0x00000000#32)) (col d)
    (broadcastInDim S1600000 ![] bcast_S_S1600000 (constant (F := Ideal) S_ .f32 0x3F800000#32))

/-- The reciprocal of the clamped degree, as a column. -/
def recipCol (dg : FV32 S100000) : FV32 S100000x1 :=
  broadcastInDim S100000x1 ![0] bcast_S100000_S100000x1_0
    (Host.divf (broadcastInDim S100000 ![] bcast_S_S100000 (constant (F := Ideal) S_ .f32 0x3F800000#32))
      (maximumf dg (broadcastInDim S100000 ![] bcast_S_S100000 (constant (F := Ideal) S_ .f32 0x3F800000#32))))

/-- The neighbour aggregate of 64 features. -/
def agg64 (s d : IV32 S1600000) (h : FV32 S100000x64) : FV32 S100000x64 :=
  Host.scatterAdd scatter_S100000x64_S1600000x1_S1600000x64_1_0_0_1
    (broadcastInDim S100000x64 ![] bcast_S_S100000x64 (constant (F := Ideal) S_ .f32 0x00000000#32)) (col d)
    (Host.gather gather_S100000x64_S1600000x1_S1600000x64_1_0_n_n_0_1_164 h (wrapCol s))

/-- The neighbour aggregate of 128 features. -/
def agg128 (s d : IV32 S1600000) (h : FV32 S100000x128) : FV32 S100000x128 :=
  Host.scatterAdd scatter_S100000x128_S1600000x1_S1600000x128_1_0_0_1
    (broadcastInDim S100000x128 ![] bcast_S_S100000x128 (constant (F := Ideal) S_ .f32 0x00000000#32)) (col d)
    (Host.gather gather_S100000x128_S1600000x1_S1600000x128_1_0_n_n_0_1_1128 h (wrapCol s))

variable (W : Valuation τ sig (Elt Ideal))

set_option maxHeartbeats 4000000

/-! ## The first stretch -/

theorem first_src : (StableHlo.after (hostOps0 (F := Ideal)) W (Proc.devRef .tc main_v1) : IV32 S1600000) = srcIds (W (Proc.devRef .tc main_arg1)) := by
  after_results_simp <;> try rfl

theorem first_dst : (StableHlo.after (hostOps0 (F := Ideal)) W (Proc.devRef .tc main_v3) : IV32 S1600000) = dstIds (W (Proc.devRef .tc main_arg1)) := by
  after_results_simp <;> try rfl

theorem first_recip : (StableHlo.after (hostOps0 (F := Ideal)) W (Proc.devRef .tc main_v12) : FV32 S100000x1)
    = recipCol (deg (dstIds (W (Proc.devRef .tc main_arg1)))) := by
  after_results_simp <;> try rfl

theorem first_mean : (StableHlo.after (hostOps0 (F := Ideal)) W (Proc.devRef .tc main_v24) : FV32 S100000x64)
    = mulf (agg64 (srcIds (W (Proc.devRef .tc main_arg1))) (dstIds (W (Proc.devRef .tc main_arg1))) (W (Proc.devRef .tc main_arg0)))
        (broadcastInDim S100000x64 ![0, 1] bcast_S100000x1_S100000x64_0_1 (recipCol (deg (dstIds (W (Proc.devRef .tc main_arg1)))))) := by
  unfold agg64 recipCol deg col wrapCol srcIds dstIds
  after_results_simp <;> try rfl

theorem first_weights : (StableHlo.after (hostOps0 (F := Ideal)) W (Proc.devRef .tc main_v25) : FV32 S64x128)
    = (addf (W (Proc.devRef .tc main_arg4) : FV32 S64x128) (W (Proc.devRef .tc main_arg5)) : FV32 S64x128) := by
  after_results_simp <;> try rfl

theorem first_bias : (StableHlo.after (hostOps0 (F := Ideal)) W (Proc.devRef .tc main_v27) : FV32 S1x128)
    = (shapeCast S1x128 (addf (W (Proc.devRef .tc main_arg3) : FV32 S128) (W (Proc.devRef .tc main_arg6))) shapeCasts_S128_S1x128 : FV32 S1x128) := by
  after_results_simp <;> try rfl

theorem first_x : StableHlo.after (hostOps0 (F := Ideal)) W (Proc.devRef .tc main_arg0) = W (Proc.devRef .tc main_arg0) := by
  after_results_simp

theorem first_w : StableHlo.after (hostOps0 (F := Ideal)) W (Proc.devRef .tc main_arg2) = W (Proc.devRef .tc main_arg2) := by
  after_results_simp

/-- The second layer's weights and biases pass through the first stretch. -/
theorem first_keeps7 : StableHlo.after (hostOps0 (F := Ideal)) W (Proc.devRef .tc main_arg7) = W (Proc.devRef .tc main_arg7) := by
  after_results_simp

theorem first_keeps8 : StableHlo.after (hostOps0 (F := Ideal)) W (Proc.devRef .tc main_arg8) = W (Proc.devRef .tc main_arg8) := by
  after_results_simp

theorem first_keeps9 : StableHlo.after (hostOps0 (F := Ideal)) W (Proc.devRef .tc main_arg9) = W (Proc.devRef .tc main_arg9) := by
  after_results_simp

theorem first_keeps10 : StableHlo.after (hostOps0 (F := Ideal)) W (Proc.devRef .tc main_arg10) = W (Proc.devRef .tc main_arg10) := by
  after_results_simp

theorem first_keeps11 : StableHlo.after (hostOps0 (F := Ideal)) W (Proc.devRef .tc main_arg11) = W (Proc.devRef .tc main_arg11) := by
  after_results_simp

/-! ## The second stretch -/

theorem second_mean : (StableHlo.after (hostOps1 (F := Ideal)) W (Proc.devRef .tc main_v40) : FV32 S100000x128)
    = mulf (agg128 (W (Proc.devRef .tc main_v1)) (W (Proc.devRef .tc main_v3)) (W (Proc.devRef .tc main_v28)))
        (broadcastInDim S100000x128 ![0, 1] bcast_S100000x1_S100000x128_0_1 (W (Proc.devRef .tc main_v12))) := by
  unfold agg128 col wrapCol
  after_results_simp <;> try rfl

theorem second_weights : (StableHlo.after (hostOps1 (F := Ideal)) W (Proc.devRef .tc main_v41) : FV32 S128x64)
    = (addf (W (Proc.devRef .tc main_arg9) : FV32 S128x64) (W (Proc.devRef .tc main_arg10)) : FV32 S128x64) := by
  after_results_simp <;> try rfl

theorem second_bias : (StableHlo.after (hostOps1 (F := Ideal)) W (Proc.devRef .tc main_v43) : FV32 S1x64)
    = (shapeCast S1x64 (addf (W (Proc.devRef .tc main_arg8) : FV32 S64) (W (Proc.devRef .tc main_arg11))) shapeCasts_S64_S1x64 : FV32 S1x64) := by
  after_results_simp <;> try rfl

theorem second_h : StableHlo.after (hostOps1 (F := Ideal)) W (Proc.devRef .tc main_v28) = W (Proc.devRef .tc main_v28) := by
  after_results_simp

theorem second_w : StableHlo.after (hostOps1 (F := Ideal)) W (Proc.devRef .tc main_arg7) = W (Proc.devRef .tc main_arg7) := by
  after_results_simp

/-! ## The mean as the specification spells it -/

/-- Multiplying by the reciprocal column broadcast along the 64 features is the mean by the clamped degree. -/
theorem mean64 (A : FV32 S100000x64) (dg : FV32 S100000) :
    mulf A (broadcastInDim S100000x64 ![0, 1] bcast_S100000x1_S100000x64_0_1 (recipCol dg)) = Cert.SageMean.meanMul A dg :=
  Cert.SageMean.meanMul_host A dg _ _ bcast_S100000_S100000x1_0 bcast_S100000x1_S100000x64_0_1
    (fun j => Cert.SageMean.splat_apply bcast_S_S100000 _ j) (fun j => Cert.SageMean.splat_apply bcast_S_S100000 _ j)

/-- The same along the 128 features. -/
theorem mean128 (A : FV32 S100000x128) (dg : FV32 S100000) :
    mulf A (broadcastInDim S100000x128 ![0, 1] bcast_S100000x1_S100000x128_0_1 (recipCol dg)) = Cert.SageMean.meanMul A dg :=
  Cert.SageMean.meanMul_host A dg _ _ bcast_S100000_S100000x1_0 bcast_S100000x1_S100000x128_0_1
    (fun j => Cert.SageMean.splat_apply bcast_S_S100000 _ j) (fun j => Cert.SageMean.splat_apply bcast_S_S100000 _ j)

end Cert.KernelIdeal.HostSide

end
-- ==== Proof.KernelHost.lean ====
/-
  What each region of the kernel program finds in its operand arrays, as functions of the launch memory.

  The first region is entered after the first stretch of host operations run from the launch memory: its operands are the
  mean of the input features' neighbour aggregate, the input features, the neighbour weights, the summed root and skip
  weights, and the summed biases as one row. The second region is entered after the second stretch run from what the
  first region leaves: every buffer other than the first region's arrays is as the first stretch left it, and the first
  region's output holds the hidden features `H`. Its operands are the mean of `H`'s neighbour aggregate, `H`, and the
  second layer's weights and biases prepared the same way.
-/
import proofs.«150517_j41051297415239_1_alg».proof.Proof.Gen.KernelIdeal.Frame
import proofs.«150517_j41051297415239_1_alg».proof.Proof.HostK

set_option maxRecDepth 16384

noncomputable section

namespace Cert.KernelIdeal.Whole

open Cert.KernelIdeal Cert.KernelIdeal.Gen Cert.KernelIdeal.HostSide
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- The source and destination ids of the launch memory's edge list. -/
abbrev src : IV32 S1600000 := srcIds (m ((c.tc : Thread nD τ).loc main_arg1))
abbrev dst : IV32 S1600000 := dstIds (m ((c.tc : Thread nD τ).loc main_arg1))

/-! ## The launch contents read at an argument -/

theorem launch_arg (b : Ref sig .tc) : W0 m ρ c (Proc.devRef .tc b) = m ((c.tc : Thread nD τ).loc b) := rfl

/-! ## The first region's operands -/

theorem entry0_mean : (V1 m ρ c main_v24 : FV32 S100000x64)
    = Cert.SageMean.meanMul (agg64 (src m c) (dst m c) (m ((c.tc : Thread nD τ).loc main_arg0))) (deg (dst m c)) := by
  show (StableHlo.after (hostOps0 (F := Ideal)) (W0 m ρ c) (Proc.devRef .tc main_v24) : FV32 S100000x64) = _
  rw [first_mean, mean64]

theorem entry0_x : (V1 m ρ c main_arg0 : FV32 S100000x64) = m ((c.tc : Thread nD τ).loc main_arg0) := by
  show (StableHlo.after (hostOps0 (F := Ideal)) (W0 m ρ c) (Proc.devRef .tc main_arg0) : FV32 S100000x64) = _
  rw [first_x]

theorem entry0_w : (V1 m ρ c main_arg2 : FV32 S64x128) = m ((c.tc : Thread nD τ).loc main_arg2) := by
  show (StableHlo.after (hostOps0 (F := Ideal)) (W0 m ρ c) (Proc.devRef .tc main_arg2) : FV32 S64x128) = _
  rw [first_w]

theorem entry0_weights : (V1 m ρ c main_v25 : FV32 S64x128)
    = (addf (m ((c.tc : Thread nD τ).loc main_arg4) : FV32 S64x128) (m ((c.tc : Thread nD τ).loc main_arg5)) : FV32 S64x128) := by
  show (StableHlo.after (hostOps0 (F := Ideal)) (W0 m ρ c) (Proc.devRef .tc main_v25) : FV32 S64x128) = _
  rw [first_weights]

theorem entry0_bias : Cert.Gcn.rowOf (V1 m ρ c main_v27 : FV32 S1x128)
    = (addf (m ((c.tc : Thread nD τ).loc main_arg3) : FV32 S128) (m ((c.tc : Thread nD τ).loc main_arg6)) : FV32 S128) := by
  show Cert.Gcn.rowOf (StableHlo.after (hostOps0 (F := Ideal)) (W0 m ρ c) (Proc.devRef .tc main_v27) : FV32 S1x128) = _
  rw [first_bias, Cert.Gcn.rowOf_shapeCast]

/-! ## A buffer the first region does not own keeps the first stretch's contents -/

theorem exit0_src : (W2 m ρ c (Proc.devRef .tc main_v1) : IV32 S1600000) = src m c := by
  rw [W2_of_ne m ρ c main_v1 (by decide)]
  show (StableHlo.after (hostOps0 (F := Ideal)) (W0 m ρ c) (Proc.devRef .tc main_v1) : IV32 S1600000) = _
  rw [first_src]

theorem exit0_dst : (W2 m ρ c (Proc.devRef .tc main_v3) : IV32 S1600000) = dst m c := by
  rw [W2_of_ne m ρ c main_v3 (by decide)]
  show (StableHlo.after (hostOps0 (F := Ideal)) (W0 m ρ c) (Proc.devRef .tc main_v3) : IV32 S1600000) = _
  rw [first_dst]

theorem exit0_recip : (W2 m ρ c (Proc.devRef .tc main_v12) : FV32 S100000x1) = recipCol (deg (dst m c)) := by
  rw [W2_of_ne m ρ c main_v12 (by decide)]
  show (StableHlo.after (hostOps0 (F := Ideal)) (W0 m ρ c) (Proc.devRef .tc main_v12) : FV32 S100000x1) = _
  rw [first_recip]

theorem exit0_arg (b : Ref sig .tc) (hb : ∀ w, Pipeline.arrRef spec0 w ≠ b)
    (hk : StableHlo.after (hostOps0 (F := Ideal)) (W0 m ρ c) (Proc.devRef .tc b) = W0 m ρ c (Proc.devRef .tc b)) :
    W2 m ρ c (Proc.devRef .tc b) = m ((c.tc : Thread nD τ).loc b) := by
  rw [W2_of_ne m ρ c b hb]
  exact hk

/-! ## The second region's operands, the first region's output holding `H` -/

section Second

variable (H : FV32 S100000x128) (hH : (W2 m ρ c (Proc.devRef .tc main_v28) : FV32 S100000x128) = H)
include hH

theorem entry1_mean : (V3 m ρ c main_v40 : FV32 S100000x128) = Cert.SageMean.meanMul (agg128 (src m c) (dst m c) H) (deg (dst m c)) := by
  show (StableHlo.after (hostOps1 (F := Ideal)) (W2 m ρ c) (Proc.devRef .tc main_v40) : FV32 S100000x128) = _
  rw [second_mean, exit0_src, exit0_dst, exit0_recip, hH, mean128]

theorem entry1_h : (V3 m ρ c main_v28 : FV32 S100000x128) = H := by
  show (StableHlo.after (hostOps1 (F := Ideal)) (W2 m ρ c) (Proc.devRef .tc main_v28) : FV32 S100000x128) = _
  rw [second_h, hH]

end Second

theorem entry1_w : (V3 m ρ c main_arg7 : FV32 S128x64) = m ((c.tc : Thread nD τ).loc main_arg7) := by
  show (StableHlo.after (hostOps1 (F := Ideal)) (W2 m ρ c) (Proc.devRef .tc main_arg7) : FV32 S128x64) = _
  rw [second_w]
  exact exit0_arg m ρ c main_arg7 (by decide) (first_keeps7 _)

theorem entry1_weights : (V3 m ρ c main_v41 : FV32 S128x64)
    = (addf (m ((c.tc : Thread nD τ).loc main_arg9) : FV32 S128x64) (m ((c.tc : Thread nD τ).loc main_arg10)) : FV32 S128x64) := by
  show (StableHlo.after (hostOps1 (F := Ideal)) (W2 m ρ c) (Proc.devRef .tc main_v41) : FV32 S128x64) = _
  rw [second_weights, exit0_arg m ρ c main_arg9 (by decide) (first_keeps9 _), exit0_arg m ρ c main_arg10 (by decide) (first_keeps10 _)]

theorem entry1_bias : Cert.Gcn.rowOf (V3 m ρ c main_v43 : FV32 S1x64)
    = (addf (m ((c.tc : Thread nD τ).loc main_arg8) : FV32 S64) (m ((c.tc : Thread nD τ).loc main_arg11)) : FV32 S64) := by
  show Cert.Gcn.rowOf (StableHlo.after (hostOps1 (F := Ideal)) (W2 m ρ c) (Proc.devRef .tc main_v43) : FV32 S1x64) = _
  rw [second_bias, Cert.Gcn.rowOf_shapeCast, exit0_arg m ρ c main_arg8 (by decide) (first_keeps8 _), exit0_arg m ρ c main_arg11 (by decide) (first_keeps11 _)]

end Cert.KernelIdeal.Whole

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.Region0.lean ====
/-
  The first layer's region of the kernel, read as one whole-array function.

  The region's body, at every row block of 5000 rows, forms  max (a · Wn + x · Wx + b, 0)  of the block `a` of the
  mean-aggregated neighbour features, the block `x` of the node features, the whole weight matrices and the whole
  one-row bias. A change of float format is the identity on extended reals, a re-cast to the same shape is the
  identity, and a product accumulated into zero is the plain sum over the contracted index; so the block the body
  leaves is the block of  `Cert.Sage.combine A X Wn Wx (row of b)`  at the same rows, and since the twenty row
  blocks tile the 100000 rows, the output array ends holding that function of the arrays the region found.
-/
import proofs.«150517_j41051297415239_1_alg».proof.Proof.Gen.KernelIdeal.Frame
import proofs.«150517_j41051297415239_1_alg».proof.Proof.LibMatmulSum
import proofs.«150517_j41051297415239_1_alg».proof.Proof.LibBiasRow
import proofs.«150517_j41051297415239_1_alg».proof.Proof.LibSageSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an entry -/

/-- The product's dimension record contracts the left operand's second axis with the right operand's first:
    the four coordinate facts. -/
theorem dot_lhs_row (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl

theorem dot_lhs_contr (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q

theorem dot_rhs_contr (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q

theorem dot_rhs_col (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

/-- A product of a row block with a weight matrix, accumulated into zero, at an entry: the sum over the contracted
    index, whatever the operands' formats. -/
theorem block_matmul {φ₁ φ₂ : FTy} (l : FVec Ideal S5000x64 φ₁) (r : FVec Ideal S64x128 φ₂) (p : Fin 5000) (q : Fin 128) :
    matmul (F := Ideal) dot_S5000x64_S64x128_S5000x128_1_0_0_1_n_n none l r (constant (F := Ideal) S5000x128 .f32 0x00000000#32) (ix2 p q)
      = ∑ k : Fin 64, l (ix2 p k) * r (ix2 k q) :=
  Cert.GraphConv.matmul_zero_sum dot_S5000x64_S64x128_S5000x128_1_0_0_1_n_n none rfl rfl
    dot_lhs_row dot_lhs_contr dot_rhs_contr dot_rhs_col l r (ix2 p q)

/-- The body's payload at entry `(p, q)` of its block is the layer of the blocks it loaded at that entry. -/
theorem payload_entry (x0 x1 : FVec Ideal S5000x64 .f32) (x2 x3 : FVec Ideal S64x128 .f32) (x4 : FVec Ideal S1x128 .f32)
    (p : Fin 5000) (q : Fin 128) :
    k0_pay1 (F := Ideal) x0 x1 x2 x3 x4 (ix2 p q) = Cert.Sage.combine x0 x1 x2 x3 (Cert.Gcn.rowOf x4) (ix2 p q) := by
  unfold k0_pay1
  rw [Cert.Sage.combine_ix2, Cert.Gcn.rowOf_ix1]
  rw [maximumf_apply, addf_apply, addf_apply, broadcast_apply, shapeCast_self, shapeCast_self, shapeCast_self, shapeCast_self,
    broadcastTo_1b_ab_apply, block_matmul, block_matmul]
  rfl

/-! ## The windows' index maps over the grid -/

/-- Both row-blocked inputs and the output are at row block `t` at point `t`; the weights and the bias row are whole
    blocks at every point. Decided over the twenty points. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem zero_offsets : (![0, 0] : Fin 2 → Nat) = fun _ => 0 := funext fun a => by fin_cases a <;> rfl

/-! ## What a point writes back -/

variable (V : (c : Dev nD) → (b : Ref sig .tc) → Buf (Elt Ideal) ((c : Thread nD τ).loc b))

/-- The layer of the arrays the region found. -/
abbrev layer (c : Dev nD) : FVec Ideal ⟨2, ![100000, 128]⟩ .f32 :=
  Cert.Sage.combine (V c main_v24) (V c main_arg0) (V c main_arg2) (V c main_v25) (Cert.Gcn.rowOf (V c main_v27))

/-- Point `t` writes back rows `5000 t … 5000 t + 4999` of the layer of the arrays the region found. -/
theorem flushed_eq (c : Dev nD) (t : Fin cfg0.N) :
    (dat0 (F := Ideal) V c).flushed 5 t = ((cfg0.win 5).blk t).view.read (Elt Ideal) (layer V c) := by
  show (cfg0.win 5).cut (grid0.coords t) ((dat0 V c).after 5 t) = _
  rw [after0_5]
  unfold out0_5
  rw [View.canon_unit_zero zero_offsets]
  simp only [View.ld_unit_zero (S := S5000x64) zero_offsets, View.ld_unit_zero (S := S64x128) zero_offsets,
    View.ld_unit_zero (S := S1x128) zero_offsets]
  obtain ⟨e00, e01, e10, e11, e20, e21, e30, e31, e40, e41, e50, e51⟩ := index_facts t
  refine funext fun (j : S5000x128.Idx) => ?_
  show k0_pay1 (F := Ideal) (iblk0 V c 0 t) (iblk0 V c 1 t) (iblk0 V c 2 t) (iblk0 V c 3 t) (iblk0 V c 4 t) j
      = layer V c (((cfg0.win 5).blk t).view.emb j)
  obtain ⟨p, q, rfl⟩ : ∃ (p : Fin 5000) (q : Fin 128), j = ix2 p q := ⟨j 0, j 1, eq_ix2 j⟩
  refine (payload_entry _ _ _ _ _ p q).trans ?_
  refine Cert.Sage.combine_of_rows _ _ _ _ _ _ _ _ _ _ (ix2 p q) _ ?_ ?_ ?_ ?_ ?_ ?_
  · -- the aggregate's block: row p of the block is row 5000 t + p of the array
    intro k
    show V c main_v24 (((cfg0.win 0).blk t).view.emb (ix2 p k))
        = V c main_v24 (ix2 (((cfg0.win 5).blk t).view.emb (ix2 p q) 0) k)
    refine congrArg (V c main_v24) (funext fun a => Fin.ext ?_)
    match a with
    | ⟨0, _⟩ => show win0_0.index t (0 : Fin 2) * 5000 + 1 * p.val = win0_5.index t (0 : Fin 2) * 5000 + 1 * p.val; rw [e00, e50]
    | ⟨1, _⟩ => show win0_0.index t (1 : Fin 2) * 64 + 1 * k.val = k.val; rw [e01]; omega
  · -- the features' block, likewise
    intro k
    show V c main_arg0 (((cfg0.win 1).blk t).view.emb (ix2 p k))
        = V c main_arg0 (ix2 (((cfg0.win 5).blk t).view.emb (ix2 p q) 0) k)
    refine congrArg (V c main_arg0) (funext fun a => Fin.ext ?_)
    match a with
    | ⟨0, _⟩ => show win0_1.index t (0 : Fin 2) * 5000 + 1 * p.val = win0_5.index t (0 : Fin 2) * 5000 + 1 * p.val; rw [e10, e50]
    | ⟨1, _⟩ => show win0_1.index t (1 : Fin 2) * 64 + 1 * k.val = k.val; rw [e11]; omega
  · -- the neighbour weights: the whole array at every point
    refine funext fun (y : S64x128.Idx) => ?_
    show V c main_arg2 (((cfg0.win 2).blk t).view.emb y) = V c main_arg2 y
    refine congrArg (V c main_arg2) (funext fun a => Fin.ext ?_)
    match a with
    | ⟨0, _⟩ => show win0_2.index t (0 : Fin 2) * 64 + 1 * (y 0).val = (y 0).val; rw [e20]; omega
    | ⟨1, _⟩ => show win0_2.index t (1 : Fin 2) * 128 + 1 * (y 1).val = (y 1).val; rw [e21]; omega
  · -- the summed root and skip weights: the whole array at every point
    refine funext fun (y : S64x128.Idx) => ?_
    show V c main_v25 (((cfg0.win 3).blk t).view.emb y) = V c main_v25 y
    refine congrArg (V c main_v25) (funext fun a => Fin.ext ?_)
    match a with
    | ⟨0, _⟩ => show win0_3.index t (0 : Fin 2) * 64 + 1 * (y 0).val = (y 0).val; rw [e30]; omega
    | ⟨1, _⟩ => show win0_3.index t (1 : Fin 2) * 128 + 1 * (y 1).val = (y 1).val; rw [e31]; omega
  · -- the bias row: the whole one-row array at every point
    refine congrArg Cert.Gcn.rowOf (funext fun (y : S1x128.Idx) => ?_)
    show V c main_v27 (((cfg0.win 4).blk t).view.emb y) = V c main_v27 y
    refine congrArg (V c main_v27) (funext fun a => Fin.ext ?_)
    match a with
    | ⟨0, _⟩ => show win0_4.index t (0 : Fin 2) * 1 + 1 * (y 0).val = (y 0).val; rw [e40]; omega
    | ⟨1, _⟩ => show win0_4.index t (1 : Fin 2) * 128 + 1 * (y 1).val = (y 1).val; rw [e41]; omega
  · -- the column is the block's column
    show q.val = win0_5.index t (1 : Fin 2) * 128 + 1 * q.val
    rw [e51]; omega

/-! ## The blocks tile the array -/

/-- An index of the output array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28).slice (win0_5.rect t)).set ↔ _
  rw [View.set_slice_whole, Rect.mem_set_unit]
  exact Iff.rfl

/-- Row `r` of the output array is in the block of point `r / 5000`. -/
theorem covered (i : S100000x128.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, -, -, -, -, e50, e51⟩ := index_facts t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    rw [e50, ht]; omega
  | ⟨1, _⟩ =>
    show win0_5.index t (1 : Fin 2) * 128 ≤ (i 1).val ∧ (i 1).val < win0_5.index t (1 : Fin 2) * 128 + 128
    rw [e51]; omega

/-! ## The output array after the region -/

/-- The region leaves, in its output array, the layer of the arrays it found: the mean-aggregated neighbour features,
    the node features, the neighbour weights, the summed root and skip weights and the summed bias row. -/
theorem final0 (c : Dev nD) :
    (dat0 (F := Ideal) V c).arrAt 5 cfg0.N
      = Cert.Sage.combine (V c main_v24) (V c main_arg0) (V c main_arg2) (V c main_v25) (Cert.Gcn.rowOf (V c main_v27)) :=
  (dat0 (F := Ideal) V c).arrAt_eq_of_cover 5 (layer V c) (fun t _ => flushed_eq V c t) covered

end Cert.KernelIdeal.Region0

end
-- ==== Proof.LibSkipDefs.lean ====
/-
  A two-layer graph network whose layers add a skip connection, as whole-array functions on extended reals, generic in
  the sizes.

  A layer maps node features X (R rows, K columns) and their mean-aggregated neighbour features A to
      A · Wn + bn + X · Wr + (X · Wl + bl),
  the neighbour product with its bias, the root product, and a skip product with its own bias; the first layer applies
  the rectifier to that sum. The same layer can be computed with the two products of X folded into one,
      A · Wn + X · (Wr + Wl) + (bn + bl),
  which is `combineLin` (and, with the rectifier, the layer `Cert.Sage.combine`) at the summed weights and biases.
  The zero of the rectifier is the all-zero 32-bit word read at the ideal values; it is never evaluated.
-/
import proofs.«150517_j41051297415239_1_alg».proof.Proof.LibSageMean

noncomputable section

namespace Cert.SageSkip

open Idealize.ShloMosaic Idealize.ShloMosaic.ValueIdx Cert.Gcn Cert.Sage Cert.SageMean

variable {R K N : ℕ}

/-- A layer without rectifier, the root and skip products folded: `A · Wl + X · Wr + b`, entry by entry. -/
def combineLin (A X : FVec Ideal ⟨2, ![R, K]⟩ .f32) (Wl Wr : FVec Ideal ⟨2, ![K, N]⟩ .f32) (b : FVec Ideal ⟨1, ![N]⟩ .f32) :
    FVec Ideal ⟨2, ![R, N]⟩ .f32 :=
  fun i => linear A Wl i + linear X Wr i + b (ix1 (i 1))

theorem combineLin_ix2 (A X : FVec Ideal ⟨2, ![R, K]⟩ .f32) (Wl Wr : FVec Ideal ⟨2, ![K, N]⟩ .f32) (b : FVec Ideal ⟨1, ![N]⟩ .f32)
    (r : Fin R) (c : Fin N) :
    combineLin A X Wl Wr b (ix2 r c)
      = (∑ k : Fin K, A (ix2 r k) * Wl (ix2 k c)) + (∑ k : Fin K, X (ix2 r k) * Wr (ix2 k c)) + b (ix1 c) := rfl

/-- A layer with its skip connection written out: `(A · Wn + bn + X · Wr) + (X · Wl + bl)`, entry by entry. -/
def skipLin (A X : FVec Ideal ⟨2, ![R, K]⟩ .f32) (Wn Wr Wl : FVec Ideal ⟨2, ![K, N]⟩ .f32) (bn bl : FVec Ideal ⟨1, ![N]⟩ .f32) :
    FVec Ideal ⟨2, ![R, N]⟩ .f32 :=
  fun i => ((linear A Wn i + bn (ix1 (i 1))) + linear X Wr i) + (linear X Wl i + bl (ix1 (i 1)))

/-- The same layer followed by the rectifier. -/
def skipRelu (A X : FVec Ideal ⟨2, ![R, K]⟩ .f32) (Wn Wr Wl : FVec Ideal ⟨2, ![K, N]⟩ .f32) (bn bl : FVec Ideal ⟨1, ![N]⟩ .f32) :
    FVec Ideal ⟨2, ![R, N]⟩ .f32 :=
  fun i => max (skipLin A X Wn Wr Wl bn bl i) (Ideal.ofBits .f32 0x00000000#32)

/-- A row block of the layer without rectifier is the layer of the whole arrays at the block's rows (the analogue of
    `Cert.Sage.combine_of_rows`). -/
theorem combineLin_of_rows {Rb : ℕ} (A X : FVec Ideal ⟨2, ![R, K]⟩ .f32) (a x : FVec Ideal ⟨2, ![Rb, K]⟩ .f32)
    (Wl Wr wl wr : FVec Ideal ⟨2, ![K, N]⟩ .f32) (b b' : FVec Ideal ⟨1, ![N]⟩ .f32)
    (j : (⟨2, ![Rb, N]⟩ : Shape).Idx) (i : (⟨2, ![R, N]⟩ : Shape).Idx)
    (ha : ∀ k : Fin K, a (ix2 (j 0) k) = A (ix2 (i 0) k)) (hx : ∀ k : Fin K, x (ix2 (j 0) k) = X (ix2 (i 0) k))
    (hwl : wl = Wl) (hwr : wr = Wr) (hb : b' = b) (hc : (j 1).val = (i 1).val) :
    combineLin a x wl wr b' j = combineLin A X Wl Wr b i := by
  subst hwl hwr hb
  have hc' : j 1 = i 1 := Fin.ext hc
  unfold combineLin linear
  simp only [ha, hx, hc']

end Cert.SageSkip

end
-- ==== Proof.Region1.lean ====
/-
  The second layer's region of the kernel, read as one whole-array function.

  The region's body, at every row block of 5000 rows, forms  a · Wn + x · Wx + b  of the block `a` of the
  mean-aggregated neighbour features of the hidden layer, the block `x` of the hidden layer itself, the whole
  weight matrices and the whole one-row bias; there is no rectifier. A change of float format is the identity on
  extended reals, a re-cast to the same shape is the identity, and a product accumulated into zero is the plain sum
  over the contracted index; so the block the body leaves is the block of
  `Cert.SageSkip.combineLin A X Wn Wx (row of b)`  at the same rows, and since the twenty row blocks tile the 100000
  rows, the output array ends holding that function of the arrays the region found.
-/
import proofs.«150517_j41051297415239_1_alg».proof.Proof.Gen.KernelIdeal.Frame
import proofs.«150517_j41051297415239_1_alg».proof.Proof.LibMatmulSum
import proofs.«150517_j41051297415239_1_alg».proof.Proof.LibBiasRow
import proofs.«150517_j41051297415239_1_alg».proof.Proof.LibSkipDefs
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an entry -/

/-- The product's dimension record contracts the left operand's second axis with the right operand's first:
    the four coordinate facts. -/
theorem dot_lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

theorem dot_lhs_contr (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q

theorem dot_rhs_contr (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q

theorem dot_rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- A product of a row block with a weight matrix, accumulated into zero, at an entry: the sum over the contracted
    index, whatever the operands' formats. -/
theorem block_matmul {φ₁ φ₂ : FTy} (l : FVec Ideal S5000x128 φ₁) (r : FVec Ideal S128x64 φ₂) (p : Fin 5000) (q : Fin 64) :
    matmul (F := Ideal) dot_S5000x128_S128x64_S5000x64_1_0_0_1_n_n none l r (constant (F := Ideal) S5000x64 .f32 0x00000000#32) (ix2 p q)
      = ∑ k : Fin 128, l (ix2 p k) * r (ix2 k q) :=
  Cert.GraphConv.matmul_zero_sum dot_S5000x128_S128x64_S5000x64_1_0_0_1_n_n none rfl rfl
    dot_lhs_row dot_lhs_contr dot_rhs_contr dot_rhs_col l r (ix2 p q)

/-- The body's payload at entry `(p, q)` of its block is the layer of the blocks it loaded at that entry. -/
theorem payload_entry (x0 x1 : FVec Ideal S5000x128 .f32) (x2 x3 : FVec Ideal S128x64 .f32) (x4 : FVec Ideal S1x64 .f32)
    (p : Fin 5000) (q : Fin 64) :
    k1_pay1 (F := Ideal) x0 x1 x2 x3 x4 (ix2 p q) = Cert.SageSkip.combineLin x0 x1 x2 x3 (Cert.Gcn.rowOf x4) (ix2 p q) := by
  unfold k1_pay1
  rw [Cert.SageSkip.combineLin_ix2, Cert.Gcn.rowOf_ix1]
  rw [addf_apply, addf_apply, shapeCast_self, shapeCast_self, shapeCast_self, shapeCast_self, shapeCast_self,
    broadcastTo_1b_ab_apply, block_matmul, block_matmul]
  rfl

/-! ## The windows' index maps over the grid -/

/-- Both row-blocked inputs and the output are at row block `t` at point `t`; the weights and the bias row are whole
    blocks at every point. Decided over the twenty points. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem zero_offsets : (![0, 0] : Fin 2 → Nat) = fun _ => 0 := funext fun a => by fin_cases a <;> rfl

/-! ## What a point writes back -/

variable (V : (c : Dev nD) → (b : Ref sig .tc) → Buf (Elt Ideal) ((c : Thread nD τ).loc b))

/-- The layer of the arrays the region found. -/
abbrev layer (c : Dev nD) : FVec Ideal ⟨2, ![100000, 64]⟩ .f32 :=
  Cert.SageSkip.combineLin (V c main_v40) (V c main_v28) (V c main_arg7) (V c main_v41) (Cert.Gcn.rowOf (V c main_v43))

/-- Point `t` writes back rows `5000 t … 5000 t + 4999` of the layer of the arrays the region found. -/
theorem flushed_eq (c : Dev nD) (t : Fin cfg1.N) :
    (dat1 (F := Ideal) V c).flushed 5 t = ((cfg1.win 5).blk t).view.read (Elt Ideal) (layer V c) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x64) zero_offsets,
    View.ld_unit_zero (S := S1x64) zero_offsets]
  obtain ⟨e00, e01, e10, e11, e20, e21, e30, e31, e40, e41, e50, e51⟩ := index_facts t
  refine funext fun (j : S5000x64.Idx) => ?_
  show k1_pay1 (F := Ideal) (iblk1 V c 0 t) (iblk1 V c 1 t) (iblk1 V c 2 t) (iblk1 V c 3 t) (iblk1 V c 4 t) j
      = layer V c (((cfg1.win 5).blk t).view.emb j)
  obtain ⟨p, q, rfl⟩ : ∃ (p : Fin 5000) (q : Fin 64), j = ix2 p q := ⟨j 0, j 1, eq_ix2 j⟩
  refine (payload_entry _ _ _ _ _ p q).trans ?_
  refine Cert.SageSkip.combineLin_of_rows _ _ _ _ _ _ _ _ _ _ (ix2 p q) _ ?_ ?_ ?_ ?_ ?_ ?_
  · -- the aggregate's block: row p of the block is row 5000 t + p of the array
    intro k
    show V c main_v40 (((cfg1.win 0).blk t).view.emb (ix2 p k))
        = V c main_v40 (ix2 (((cfg1.win 5).blk t).view.emb (ix2 p q) 0) k)
    refine congrArg (V c main_v40) (funext fun a => Fin.ext ?_)
    match a with
    | ⟨0, _⟩ => show win1_0.index t (0 : Fin 2) * 5000 + 1 * p.val = win1_5.index t (0 : Fin 2) * 5000 + 1 * p.val; rw [e00, e50]
    | ⟨1, _⟩ => show win1_0.index t (1 : Fin 2) * 128 + 1 * k.val = k.val; rw [e01]; omega
  · -- the features' block, likewise
    intro k
    show V c main_v28 (((cfg1.win 1).blk t).view.emb (ix2 p k))
        = V c main_v28 (ix2 (((cfg1.win 5).blk t).view.emb (ix2 p q) 0) k)
    refine congrArg (V c main_v28) (funext fun a => Fin.ext ?_)
    match a with
    | ⟨0, _⟩ => show win1_1.index t (0 : Fin 2) * 5000 + 1 * p.val = win1_5.index t (0 : Fin 2) * 5000 + 1 * p.val; rw [e10, e50]
    | ⟨1, _⟩ => show win1_1.index t (1 : Fin 2) * 128 + 1 * k.val = k.val; rw [e11]; omega
  · -- the neighbour weights: the whole array at every point
    refine funext fun (y : S128x64.Idx) => ?_
    show V c main_arg7 (((cfg1.win 2).blk t).view.emb y) = V c main_arg7 y
    refine congrArg (V c main_arg7) (funext fun a => Fin.ext ?_)
    match a with
    | ⟨0, _⟩ => show win1_2.index t (0 : Fin 2) * 128 + 1 * (y 0).val = (y 0).val; rw [e20]; omega
    | ⟨1, _⟩ => show win1_2.index t (1 : Fin 2) * 64 + 1 * (y 1).val = (y 1).val; rw [e21]; omega
  · -- the summed root and skip weights: the whole array at every point
    refine funext fun (y : S128x64.Idx) => ?_
    show V c main_v41 (((cfg1.win 3).blk t).view.emb y) = V c main_v41 y
    refine congrArg (V c main_v41) (funext fun a => Fin.ext ?_)
    match a with
    | ⟨0, _⟩ => show win1_3.index t (0 : Fin 2) * 128 + 1 * (y 0).val = (y 0).val; rw [e30]; omega
    | ⟨1, _⟩ => show win1_3.index t (1 : Fin 2) * 64 + 1 * (y 1).val = (y 1).val; rw [e31]; omega
  · -- the bias row: the whole one-row array at every point
    refine congrArg Cert.Gcn.rowOf (funext fun (y : S1x64.Idx) => ?_)
    show V c main_v43 (((cfg1.win 4).blk t).view.emb y) = V c main_v43 y
    refine congrArg (V c main_v43) (funext fun a => Fin.ext ?_)
    match a with
    | ⟨0, _⟩ => show win1_4.index t (0 : Fin 2) * 1 + 1 * (y 0).val = (y 0).val; rw [e40]; omega
    | ⟨1, _⟩ => show win1_4.index t (1 : Fin 2) * 64 + 1 * (y 1).val = (y 1).val; rw [e41]; omega
  · -- the column is the block's column
    show q.val = win1_5.index t (1 : Fin 2) * 64 + 1 * q.val
    rw [e51]; omega

/-! ## The blocks tile the array -/

/-- An index of the output array is in point `t`'s block iff each coordinate is in the block's range on its axis. -/
theorem mem_block (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v44).slice (win1_5.rect t)).set ↔ _
  rw [View.set_slice_whole, Rect.mem_set_unit]
  exact Iff.rfl

/-- Row `r` of the output array is in the block of point `r / 5000`. -/
theorem covered (i : S100000x64.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 64 := (i 1).isLt
  obtain ⟨t, ht⟩ : ∃ t : Fin cfg1.N, t.val = (i 0).val / 5000 := ⟨⟨(i 0).val / 5000, by rw [hN]; omega⟩, rfl⟩
  obtain ⟨-, -, -, -, -, -, -, -, -, -, e50, e51⟩ := index_facts t
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    rw [e50, ht]; omega
  | ⟨1, _⟩ =>
    show win1_5.index t (1 : Fin 2) * 64 ≤ (i 1).val ∧ (i 1).val < win1_5.index t (1 : Fin 2) * 64 + 64
    rw [e51]; omega

/-! ## The output array after the region -/

/-- The region leaves, in its output array, the layer without rectifier of the arrays it found: the mean-aggregated
    neighbour features of the hidden layer, the hidden layer, the neighbour weights, the summed root and skip weights
    and the summed bias row. -/
theorem final1 (c : Dev nD) :
    (dat1 (F := Ideal) V c).arrAt 5 cfg1.N
      = Cert.SageSkip.combineLin (V c main_v40) (V c main_v28) (V c main_arg7) (V c main_v41) (Cert.Gcn.rowOf (V c main_v43)) :=
  (dat1 (F := Ideal) V c).arrAt_eq_of_cover 5 (layer V c) (fun t _ => flushed_eq V c t) covered

end Cert.KernelIdeal.Region1

end
-- ==== Proof.KernelValue.lean ====
/-
  The kernel program's result array as a function of the launch memory.

  The first region leaves in its output the rectified layer of what it finds: the mean of the input features' neighbour
  aggregate, the input features, the neighbour weights, the summed root and skip weights, the summed biases. That is the
  hidden feature matrix `H`. The second region finds the mean of `H`'s aggregate, `H` and the second layer's weights
  and biases, and leaves the layer without rectifier in the result array.
-/
import proofs.«150517_j41051297415239_1_alg».proof.Proof.KernelHost
import proofs.«150517_j41051297415239_1_alg».proof.Proof.Region0
import proofs.«150517_j41051297415239_1_alg».proof.Proof.Region1
import proofs.«150517_j41051297415239_1_alg».proof.Proof.LibSkipDefs

set_option maxRecDepth 16384

noncomputable section

namespace Cert.KernelIdeal.Whole

open Cert.KernelIdeal Cert.KernelIdeal.Gen Cert.KernelIdeal.HostSide
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- The hidden features: the first layer of the launch memory's arguments, the root and skip products folded. -/
def hidden : FV32 S100000x128 :=
  Cert.Sage.combine (R := 100000) (K := 64) (N := 128)
    (Cert.SageMean.meanMul (agg64 (src m c) (dst m c) (m ((c.tc : Thread nD τ).loc main_arg0))) (deg (dst m c)))
    (m ((c.tc : Thread nD τ).loc main_arg0)) (m ((c.tc : Thread nD τ).loc main_arg2))
    (addf (m ((c.tc : Thread nD τ).loc main_arg4) : FV32 S64x128) (m ((c.tc : Thread nD τ).loc main_arg5)))
    (addf (m ((c.tc : Thread nD τ).loc main_arg3) : FV32 S128) (m ((c.tc : Thread nD τ).loc main_arg6)))

/-- The first region's output holds the hidden features. -/
theorem hidden_value : (W2 m ρ c (Proc.devRef .tc main_v28) : FV32 S100000x128) = hidden m c := by
  refine (W2_arr m ρ c 5).trans ?_
  rw [Cert.KernelIdeal.Region0.final0 (V1 m ρ) c, entry0_mean, entry0_x, entry0_w, entry0_weights, entry0_bias]
  rfl

/-- The result array holds the second layer of the hidden features. -/
theorem kernel_value : (W4 m ρ c (Proc.devRef .tc main_v44) : FV32 S100000x64)
    = Cert.SageSkip.combineLin (R := 100000) (K := 128) (N := 64)
        (Cert.SageMean.meanMul (agg128 (src m c) (dst m c) (hidden m c)) (deg (dst m c))) (hidden m c)
        (m ((c.tc : Thread nD τ).loc main_arg7))
        (addf (m ((c.tc : Thread nD τ).loc main_arg9) : FV32 S128x64) (m ((c.tc : Thread nD τ).loc main_arg10)))
        (addf (m ((c.tc : Thread nD τ).loc main_arg8) : FV32 S64) (m ((c.tc : Thread nD τ).loc main_arg11))) := by
  refine (W4_arr m ρ c 5).trans ?_
  rw [Cert.KernelIdeal.Region1.final1 (V3 m ρ) c, entry1_mean m ρ c (hidden m c) (hidden_value m ρ c),
    entry1_h m ρ c (hidden m c) (hidden_value m ρ c), entry1_w, entry1_weights, entry1_bias]

end Cert.KernelIdeal.Whole

end
-- ==== Proof.LibRealOps.lean ====
/-
  Closure of "every entry is a real number" under the array operations of the extended-real
  reading of floats.

  On the extended reals an array operation can leave the reals only at a corner: a sum or
  difference of opposite infinities, a quotient by zero, an inverse square root of a
  non-positive number, a bit pattern that denotes an infinity or no number at all. The lemmas
  below say that none of this happens when the operands' entries are real numbers (and, for the
  quotient and the inverse square root, nonzero or positive ones): re-indexings return operand
  entries; sums, differences, products, finite sums of products and host reductions of reals are
  real; `exp x - 1` of a real is real; a real divided by a nonzero real is real; the inverse square
  root of a positive real is a positive real. A mean of squares — a host sum of squares from a
  nonnegative start, divided by a positive real — is a nonnegative real.

  Four predicates on an array `v : S.Idx → EReal`, each "for every index `x` there is a real `r`
  with `v x = r`": `IsReal` (no condition on `r`), `IsNonneg` (`0 ≤ r`), `IsPos` (`0 < r`),
  `IsNonzero` (`r ≠ 0`). Everything is generic in the shapes.
-/
import Idealize.ShloMosaic.PureOps.Ideal
import Idealize.ShloMosaic.PureOps.Ideal.Laws
import Idealize.ShloMosaic.Lib.ValueIdx

noncomputable section

open scoped BigOperators

namespace Cert.Lib.RealOps

open Idealize.ShloMosaic

/-! ## Extended reals that are real numbers -/

/-- The sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb
  exact ⟨r + s, (EReal.coe_add r s).symm⟩

/-- The difference of two reals is a real. -/
theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb
  exact ⟨r - s, (EReal.coe_sub r s).symm⟩

/-- The product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb
  exact ⟨r * s, (EReal.coe_mul r s).symm⟩

/-- A finite sum of reals is a real. -/
theorem real_sum {ι : Type*} (s : Finset ι) (f : ι → EReal) (h : ∀ i ∈ s, ∃ r : ℝ, f i = (r : EReal)) :
    ∃ r : ℝ, ∑ i ∈ s, f i = (r : EReal) := by
  classical
  revert h
  refine Finset.induction_on s ?_ ?_
  · intro _; exact ⟨0, by simp⟩
  · intro a s ha ih h
    rw [Finset.sum_insert ha]
    exact real_add (h a (Finset.mem_insert_self a s)) (ih fun i hi => h i (Finset.mem_insert_of_mem hi))

/-- A finite sum of nonnegative reals is a nonnegative real. -/
theorem nonneg_sum {ι : Type*} (s : Finset ι) (f : ι → EReal) (h : ∀ i ∈ s, ∃ r : ℝ, 0 ≤ r ∧ f i = (r : EReal)) :
    ∃ r : ℝ, 0 ≤ r ∧ ∑ i ∈ s, f i = (r : EReal) := by
  classical
  revert h
  refine Finset.induction_on s ?_ ?_
  · intro _; exact ⟨0, le_refl _, by simp⟩
  · intro a s ha ih h
    rw [Finset.sum_insert ha]
    obtain ⟨r, hr, er⟩ := h a (Finset.mem_insert_self a s)
    obtain ⟨t, ht, et⟩ := ih fun i hi => h i (Finset.mem_insert_of_mem hi)
    exact ⟨r + t, add_nonneg hr ht, by rw [er, et, EReal.coe_add]⟩

/-- A real divided by a nonzero real is their real quotient: no corner of the extended division is met. -/
theorem div_real (r : ℝ) {s : ℝ} (hs : s ≠ 0) : Ideal.div (r : EReal) (s : EReal) = ((r / s : ℝ) : EReal) := by
  rw [Ideal.div_coe hs, ← EReal.coe_mul, mul_one_div]

/-- The inverse square root of a positive real is the positive real `(√r)⁻¹`. -/
theorem rsqrt_real {r : ℝ} (hr : 0 < r) : Ideal.rsqrt (r : EReal) = (((Real.sqrt r)⁻¹ : ℝ) : EReal) := by
  rw [Ideal.rsqrt_coe, if_neg (not_lt.mpr hr.le), if_neg hr.ne']

/-- `exp x - 1` of a real is the real `exp r - 1`. -/
theorem expm1_real (r : ℝ) : Ideal.exp (r : EReal) - 1 = ((Real.exp r - 1 : ℝ) : EReal) := by
  rw [Ideal.exp_coe, ← EReal.coe_one, ← EReal.coe_sub]

/-! ## The predicates -/

variable {S T U : Shape}

/-- Every entry of the array is a real number. -/
def IsReal (v : S.Idx → EReal) : Prop := ∀ x, ∃ r : ℝ, v x = (r : EReal)
/-- Every entry of the array is a nonnegative real number. -/
def IsNonneg (v : S.Idx → EReal) : Prop := ∀ x, ∃ r : ℝ, 0 ≤ r ∧ v x = (r : EReal)
/-- Every entry of the array is a positive real number. -/
def IsPos (v : S.Idx → EReal) : Prop := ∀ x, ∃ r : ℝ, 0 < r ∧ v x = (r : EReal)
/-- Every entry of the array is a nonzero real number. -/
def IsNonzero (v : S.Idx → EReal) : Prop := ∀ x, ∃ r : ℝ, r ≠ 0 ∧ v x = (r : EReal)

/-- Nonnegative reals are reals. -/
theorem IsNonneg.isReal {v : S.Idx → EReal} (h : IsNonneg v) : IsReal v :=
  fun x => let ⟨r, _, e⟩ := h x; ⟨r, e⟩
/-- Positive reals are reals. -/
theorem IsPos.isReal {v : S.Idx → EReal} (h : IsPos v) : IsReal v :=
  fun x => let ⟨r, _, e⟩ := h x; ⟨r, e⟩
/-- Positive reals are nonnegative. -/
theorem IsPos.isNonneg {v : S.Idx → EReal} (h : IsPos v) : IsNonneg v :=
  fun x => let ⟨r, hr, e⟩ := h x; ⟨r, hr.le, e⟩
/-- Positive reals are nonzero. -/
theorem IsPos.isNonzero {v : S.Idx → EReal} (h : IsPos v) : IsNonzero v :=
  fun x => let ⟨r, hr, e⟩ := h x; ⟨r, hr.ne', e⟩
/-- Nonzero reals are reals. -/
theorem IsNonzero.isReal {v : S.Idx → EReal} (h : IsNonzero v) : IsReal v :=
  fun x => let ⟨r, _, e⟩ := h x; ⟨r, e⟩

/-! ## Operations whose result entries are operand entries -/

/-- Any re-indexing of an array of reals (`fun j => x (g j)`) is an array of reals. -/
theorem IsReal.comp {x : S.Idx → EReal} (h : IsReal x) (g : T.Idx → S.Idx) : IsReal fun j => x (g j) :=
  fun j => h (g j)
/-- Any re-indexing of an array of nonnegative reals is one. -/
theorem IsNonneg.comp {x : S.Idx → EReal} (h : IsNonneg x) (g : T.Idx → S.Idx) : IsNonneg fun j => x (g j) :=
  fun j => h (g j)
/-- Any re-indexing of an array of positive reals is one. -/
theorem IsPos.comp {x : S.Idx → EReal} (h : IsPos x) (g : T.Idx → S.Idx) : IsPos fun j => x (g j) :=
  fun j => h (g j)
/-- Any re-indexing of an array of nonzero reals is one. -/
theorem IsNonzero.comp {x : S.Idx → EReal} (h : IsNonzero x) (g : T.Idx → S.Idx) : IsNonzero fun j => x (g j) :=
  fun j => h (g j)

/-- `broadcast_in_dim` reads operand entries: reals stay reals. -/
theorem isReal_broadcastInDim (dims : Fin S.rank → Fin T.rank) (hb : S.BroadcastsInDim T dims) {x : S.Idx → EReal}
    (h : IsReal x) : IsReal (broadcastInDim T dims hb x) :=
  fun _ => h _
/-- `broadcast_in_dim` reads operand entries: nonnegative reals stay so. -/
theorem isNonneg_broadcastInDim (dims : Fin S.rank → Fin T.rank) (hb : S.BroadcastsInDim T dims) {x : S.Idx → EReal}
    (h : IsNonneg x) : IsNonneg (broadcastInDim T dims hb x) :=
  fun _ => h _
/-- `broadcast_in_dim` reads operand entries: positive reals stay so. -/
theorem isPos_broadcastInDim (dims : Fin S.rank → Fin T.rank) (hb : S.BroadcastsInDim T dims) {x : S.Idx → EReal}
    (h : IsPos x) : IsPos (broadcastInDim T dims hb x) :=
  fun _ => h _
/-- `broadcast_in_dim` reads operand entries: nonzero reals stay so. -/
theorem isNonzero_broadcastInDim (dims : Fin S.rank → Fin T.rank) (hb : S.BroadcastsInDim T dims) {x : S.Idx → EReal}
    (h : IsNonzero x) : IsNonzero (broadcastInDim T dims hb x) :=
  fun _ => h _

/-- A transpose reads operand entries: reals stay reals. -/
theorem isReal_transpose (perm : List (Fin S.rank)) (ht : S.Transposes perm T) {x : S.Idx → EReal} (h : IsReal x) :
    IsReal (transpose T perm x ht) :=
  fun _ => h _

/-- A reshape reads operand entries: reals stay reals. -/
theorem isReal_shapeCast (hc : S.ShapeCasts T) {x : S.Idx → EReal} (h : IsReal x) : IsReal (shapeCast T x hc) :=
  fun _ => h _

/-- A select between two arrays of reals is an array of reals, whatever the condition. -/
theorem isReal_select (c : IVec S 1) {a b : S.Idx → EReal} (ha : IsReal a) (hb : IsReal b) : IsReal (select c a b) := by
  intro i
  show ∃ r : ℝ, Scalar.select (c i) (a i) (b i) = (r : EReal)
  unfold Scalar.select
  split
  · exact ha i
  · exact hb i

/-- A select whose condition is one everywhere is its first branch. -/
theorem select_eq_left (c : IVec S 1) (a b : S.Idx → EReal) (hc : ∀ i, c i = 1#1) : select c a b = a := by
  funext i
  show Scalar.select (c i) (a i) (b i) = a i
  rw [hc i]; exact ValueIdx.select_one _ _

/-! ## Constants -/

/-- A splat constant whose word denotes a real is an array of reals. -/
theorem isReal_constant (φ : FTy) (w : BitVec φ.bits) (h : ∃ r : ℝ, Ideal.ofBits φ w = (r : EReal)) :
    IsReal (constant (F := Ideal) S φ w) :=
  fun _ => h
/-- A splat constant whose word denotes a positive real is an array of positive reals. -/
theorem isPos_constant (φ : FTy) (w : BitVec φ.bits) (h : ∃ r : ℝ, 0 < r ∧ Ideal.ofBits φ w = (r : EReal)) :
    IsPos (constant (F := Ideal) S φ w) :=
  fun _ => h
/-- A splat constant whose word denotes a nonnegative real is an array of nonnegative reals. -/
theorem isNonneg_constant (φ : FTy) (w : BitVec φ.bits) (h : ∃ r : ℝ, 0 ≤ r ∧ Ideal.ofBits φ w = (r : EReal)) :
    IsNonneg (constant (F := Ideal) S φ w) :=
  fun _ => h

/-! ## Pointwise arithmetic -/

variable {φ : FTy}

/-- The sum of two arrays of reals is an array of reals. -/
theorem isReal_addf {a b : FVec Ideal S φ} (ha : IsReal a) (hb : IsReal b) : IsReal (addf a b) :=
  fun i => real_add (ha i) (hb i)
/-- The difference of two arrays of reals is an array of reals. -/
theorem isReal_subf {a b : FVec Ideal S φ} (ha : IsReal a) (hb : IsReal b) : IsReal (subf a b) :=
  fun i => real_sub (ha i) (hb i)
/-- The product of two arrays of reals is an array of reals. -/
theorem isReal_mulf {a b : FVec Ideal S φ} (ha : IsReal a) (hb : IsReal b) : IsReal (mulf a b) :=
  fun i => real_mul (ha i) (hb i)

/-- The square of an array of reals is an array of nonnegative reals. -/
theorem isNonneg_mulf_self {a : FVec Ideal S φ} (ha : IsReal a) : IsNonneg (mulf a a) := by
  intro i
  obtain ⟨r, e⟩ := ha i
  refine ⟨r * r, mul_self_nonneg r, ?_⟩
  show a i * a i = _
  rw [e, EReal.coe_mul]

/-- A nonnegative array plus a positive array is a positive array. -/
theorem isPos_addf {a b : FVec Ideal S φ} (ha : IsNonneg a) (hb : IsPos b) : IsPos (addf a b) := by
  intro i
  obtain ⟨r, hr, er⟩ := ha i
  obtain ⟨s, hs, es⟩ := hb i
  refine ⟨r + s, add_pos_of_nonneg_of_pos hr hs, ?_⟩
  show a i + b i = _
  rw [er, es, EReal.coe_add]

/-- A real array minus a real array whose difference is entrywise positive: stated on the entries. -/
theorem isPos_subf {a b : FVec Ideal S φ} (h : ∀ i, ∃ r s : ℝ, s < r ∧ a i = (r : EReal) ∧ b i = (s : EReal)) :
    IsPos (subf a b) := by
  intro i
  obtain ⟨r, s, hrs, er, es⟩ := h i
  refine ⟨r - s, sub_pos.mpr hrs, ?_⟩
  show a i - b i = _
  rw [er, es, EReal.coe_sub]

/-- `exp x - 1` of an array of reals is an array of reals. -/
theorem isReal_expm1 {a : FVec Ideal S φ} (ha : IsReal a) : IsReal (Host.expm1 a) := by
  intro i
  obtain ⟨r, e⟩ := ha i
  refine ⟨Real.exp r - 1, ?_⟩
  show Ideal.exp (a i) - 1 = _
  rw [e, expm1_real]

/-- A host quotient of an array of reals by an array of nonzero reals is an array of reals. -/
theorem isReal_divf {a b : FVec Ideal S φ} (ha : IsReal a) (hb : IsNonzero b) : IsReal (Host.divf a b) := by
  intro i
  obtain ⟨r, er⟩ := ha i
  obtain ⟨s, hs, es⟩ := hb i
  refine ⟨r / s, ?_⟩
  show Ideal.div (a i) (b i) = _
  rw [er, es, div_real r hs]

/-- A host quotient of an array of nonnegative reals by an array of positive reals is an array of nonnegative reals. -/
theorem isNonneg_divf {a b : FVec Ideal S φ} (ha : IsNonneg a) (hb : IsPos b) : IsNonneg (Host.divf a b) := by
  intro i
  obtain ⟨r, hr, er⟩ := ha i
  obtain ⟨s, hs, es⟩ := hb i
  refine ⟨r / s, div_nonneg hr hs.le, ?_⟩
  show Ideal.div (a i) (b i) = _
  rw [er, es, div_real r hs.ne']

/-- The host inverse square root of an array of positive reals is an array of positive reals. -/
theorem isPos_rsqrt {a : FVec Ideal S φ} (ha : IsPos a) : IsPos (Host.rsqrt a) := by
  intro i
  obtain ⟨r, hr, e⟩ := ha i
  refine ⟨(Real.sqrt r)⁻¹, inv_pos.mpr (Real.sqrt_pos.mpr hr), ?_⟩
  show Ideal.rsqrt (a i) = _
  rw [e, rsqrt_real hr]

/-- The host inverse square root of an array of positive reals is an array of reals. -/
theorem isReal_rsqrt {a : FVec Ideal S φ} (ha : IsPos a) : IsReal (Host.rsqrt a) := (isPos_rsqrt ha).isReal

/-! ## Contractions and reductions -/

/-- A host `dot_general` of two arrays of reals is an array of reals: each entry is a finite sum of products. -/
theorem isReal_dotGeneral {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral d prec l r) := by
  intro j
  show ∃ t : ℝ, FloatOps.dotGeneral d prec .single l r j = (t : EReal)
  rw [Ideal.dotGeneral_apply]
  exact real_sum _ _ fun k _ => real_mul (hl _) (hr _)

/-- A host float sum of an array of reals from a real initial value is an array of reals. -/
theorem isReal_reduceAdd {axes : List (Fin S.rank)} (hred : S.ReducesTo axes T) (hu : 0 < U.numel)
    {x : FVec Ideal S φ} {init : U.Idx → EReal} (hx : IsReal x) (hi : IsReal init) :
    IsReal (Host.reduceAdd (F := Ideal) x init hred hu) := by
  intro j
  show ∃ t : ℝ, Ideal.hostReduceAdd hred x (init (Shape.Idx.first hu)) j = (t : EReal)
  unfold Ideal.hostReduceAdd
  exact real_add (hi _) (real_sum _ _ fun i _ => hx i)

/-- A host float sum of an array of nonnegative reals from a nonnegative initial value is an array of nonnegative reals. -/
theorem isNonneg_reduceAdd {axes : List (Fin S.rank)} (hred : S.ReducesTo axes T) (hu : 0 < U.numel)
    {x : FVec Ideal S φ} {init : U.Idx → EReal} (hx : IsNonneg x) (hi : IsNonneg init) :
    IsNonneg (Host.reduceAdd (F := Ideal) x init hred hu) := by
  intro j
  show ∃ t : ℝ, 0 ≤ t ∧ Ideal.hostReduceAdd hred x (init (Shape.Idx.first hu)) j = (t : EReal)
  unfold Ideal.hostReduceAdd
  obtain ⟨r, hr, er⟩ := hi (Shape.Idx.first hu)
  obtain ⟨t, ht, et⟩ := nonneg_sum (Finset.univ.filter fun i => hred.drop i = j) x fun i _ => hx i
  exact ⟨r + t, add_nonneg hr ht, by rw [er, et, EReal.coe_add]⟩

/-- A MEAN OF SQUARES IS A NONNEGATIVE REAL: the host sum of the squares of an array of reals, from a nonnegative
    initial value, divided by an array of positive reals. -/
theorem isNonneg_mean_sq {axes : List (Fin S.rank)} (hred : S.ReducesTo axes T) (hu : 0 < U.numel)
    {x : FVec Ideal S φ} {init : U.Idx → EReal} {n : FVec Ideal T φ} (hx : IsReal x) (hi : IsNonneg init) (hn : IsPos n) :
    IsNonneg (Host.divf (Host.reduceAdd (F := Ideal) (mulf x x) init hred hu) n) :=
  isNonneg_divf (isNonneg_reduceAdd hred hu (isNonneg_mulf_self hx) hi) hn

/-! ## Literal words and conversions -/

/-- A pattern whose exponent field is not all ones denotes a real number (a zero, a subnormal or a normal). -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split <;> exact ⟨_, rfl⟩

/-- A pattern with sign bit zero and exponent field neither zero nor all ones (a positive normal) denotes a positive
    real: `(2^m + fraction) · 2^(exponent − bias − m)`, a product of two positive numbers. -/
theorem ieee_pos (e m : Nat) {w : Nat} (b : BitVec w) (hs : (b.extractLsb' (e + m) 1 == 1#1) = false)
    (h0 : (b.extractLsb' m e).toNat ≠ 0) (h1 : (b.extractLsb' m e).toNat ≠ 2 ^ e - 1) :
    ∃ r : ℝ, 0 < r ∧ Ideal.ieee e m b = (r : EReal) := by
  unfold Ideal.ieee
  dsimp only
  rw [if_neg h1, if_neg h0, hs]
  refine ⟨_, ?_, rfl⟩
  have h2 : (0 : ℝ) < (2 : ℝ) ^ (((b.extractLsb' m e).toNat : Int) - (2 ^ (e - 1) - 1) - (m : Int)) := zpow_pos (by norm_num) _
  have h3 : (0 : ℝ) < ((2 ^ m + (b.extractLsb' 0 m).toNat : Nat) : ℝ) := by
    have : 0 < 2 ^ m + (b.extractLsb' 0 m).toNat := Nat.add_pos_left (Nat.two_pow_pos m) _
    exact_mod_cast this
  simpa using mul_pos h3 h2

/-- An f32 word whose exponent field is not 255 denotes a real number. -/
theorem ofBits_f32_real (b : BitVec 32) (h : (b.extractLsb' 23 8).toNat ≠ 255) :
    ∃ r : ℝ, Ideal.ofBits .f32 b = (r : EReal) :=
  ieee_real 8 23 b h

/-- An f32 word with sign bit zero and exponent field neither 0 nor 255 denotes a positive real. -/
theorem ofBits_f32_pos (b : BitVec 32) (hs : (b.extractLsb' 31 1 == 1#1) = false)
    (h0 : (b.extractLsb' 23 8).toNat ≠ 0) (h1 : (b.extractLsb' 23 8).toNat ≠ 255) :
    ∃ r : ℝ, 0 < r ∧ Ideal.ofBits .f32 b = (r : EReal) :=
  ieee_pos 8 23 b hs h0 h1

/-- The zero word of f32 denotes the real `0`. -/
theorem ofBits_zero : Ideal.ofBits .f32 0x00000000#32 = ((0 : ℝ) : EReal) := by
  rw [Ideal.ofBits_zero_f32, EReal.coe_zero]

/-- A signed integer array converted to float is an array of reals: each entry is the integer itself. -/
theorem isReal_sitofp {w : Nat} (x : IVec S w) : IsReal (sitofp (F := Ideal) φ x) :=
  fun i => ⟨((x i).toInt : ℝ), rfl⟩

/-- Where the integer array is zero, its conversion is the real `0`. -/
theorem sitofp_zero (x : IVec S 32) (i : S.Idx) (h : x i = 0#32) : sitofp (F := Ideal) φ x i = ((0 : ℝ) : EReal) := by
  show (((x i).toInt : ℝ) : EReal) = _
  rw [h]; simp

end Cert.Lib.RealOps

end
-- ==== Proof.LibVecGather.lean ====
/-
Gather of a vector at an integer vector, read at an index; and a scatter-add of real numbers is a real number.

`x[idx]` of a vector `x : [N]` at an integer vector `idx : [E]` is a `stablehlo.gather` with offset_dims `[]`,
collapsed_slice_dims `[0]`, start_index_map `[0]`, index_vector_dim 1 and slice_sizes `[1]` over the indices as
`[E, 1]`, with result `[E]`. Result element `e` is `x` at the start index `idx[e, 0]`, read as a signed integer and
clamped into `[0, N − 1]`.

An accumulating scatter at the extended reals gives, at each operand index, the operand element plus a finite sum of
update elements. When the operand element and every update element are real numbers (neither `+∞` nor `−∞`), so is
the result: a finite sum of real numbers is a real number.
-/
import Idealize.ShloMosaic.Lib.ValueIdx
import Idealize.ShloMosaic.PureOps.Ideal

noncomputable section

open scoped BigOperators

namespace Cert.LibVecGather

open Idealize.ShloMosaic Idealize.ShloMosaic.ValueIdx

/-! ## Vector gather -/

section Gather
variable {α : Type}

/-- The dimension numbers of a gather of single elements for an operand `[N]`, start indices `[E, 1]` and result
    `[E]`: the one operand axis is collapsed and indexed, there is no offset axis, a slice is one element. Their
    conditions `wf` are a parameter, so that any record with these fields is an instance whatever its proof. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the start index `idx[e, 0]`, read signed and clamped into
    `[0, N − 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  -- the one operand axis: collapsed, so no offset; not a batching axis; its start is the clamped index
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## A scatter-add of real numbers is a real number -/

section Scatter

/-- A finite sum of extended reals each of which is a real number is a real number. -/
theorem sum_real {ι : Type*} (t : Finset ι) (f : ι → EReal) (hf : ∀ j ∈ t, ∃ r : ℝ, f j = ((r : ℝ) : EReal)) :
    ∃ r : ℝ, ∑ j ∈ t, f j = ((r : ℝ) : EReal) := by
  classical
  induction t using Finset.induction_on with
  | empty => exact ⟨0, by simp⟩
  | insert a t ha ih =>
    obtain ⟨ra, hra⟩ := hf a (Finset.mem_insert_self a t)
    obtain ⟨rt, hrt⟩ := ih fun j hj => hf j (Finset.mem_insert_of_mem hj)
    refine ⟨ra + rt, ?_⟩
    rw [Finset.sum_insert ha, hra, hrt, EReal.coe_add]

/-- THE ACCUMULATING SCATTER KEEPS REAL NUMBERS REAL: for any dimension numbers, at an operand index whose element is
    a real number, and with every update element a real number, the result element is a real number. -/
theorem hostScatterAdd_real {s si su : Shape} (D : ScatterDims s si su) {w : Nat} (x : s.Idx → EReal) (idx : IVec si w)
    (upd : su.Idx → EReal) (i : s.Idx) (hx : ∃ r : ℝ, x i = ((r : ℝ) : EReal))
    (hupd : ∀ j, ∃ r : ℝ, upd j = ((r : ℝ) : EReal)) :
    ∃ r : ℝ, Ideal.hostScatterAdd D x idx upd i = ((r : ℝ) : EReal) := by
  unfold Ideal.hostScatterAdd
  obtain ⟨rx, hrx⟩ := hx
  obtain ⟨rs, hrs⟩ := sum_real (Finset.univ.filter (fun j => D.resultIdx? j idx = some i)) upd (fun j _ => hupd j)
  exact ⟨rx + rs, by rw [hrx, hrs, EReal.coe_add]⟩

end Scatter

end Cert.LibVecGather

end
-- ==== Proof.LibAggReal.lean ====
/-
  Host gather, scatter-add and scalar splat keep "every entry is a real number", on the extended reals.

  A gather returns, at each result index, the operand's entry at an index computed from the integer start indices:
  its entries are operand entries, so they are real when the operand's are. An accumulating scatter returns, at each
  operand index, the operand's entry plus a finite sum of update entries; when the operand's and the updates' entries
  are real numbers (neither +∞ nor −∞) no sum of opposite infinities is met and the result is real. A scalar constant
  broadcast to any shape has one value everywhere, the number its word denotes: real when that number is. The words
  `0x3F800000` and `0x00000000` denote the reals 1 and 0. All of this holds for any dimension records and shapes.
-/
import proofs.«150517_j41051297415239_1_alg».proof.Proof.LibRealOps
import proofs.«150517_j41051297415239_1_alg».proof.Proof.LibVecGather
import Idealize.ShloMosaic.PureOps.Ideal
import Idealize.ShloMosaic.Lib.ValueIdx

noncomputable section

namespace Cert.Lib.AggReal

open Idealize.ShloMosaic Cert.Lib.RealOps

/-- A gather reads operand entries: reals stay reals. -/
theorem isReal_gather {s si t : Shape} {w : Nat} (D : GatherDims s si t) (x : FVec Ideal s .f32) (idx : IVec si w)
    (hx : IsReal x) : IsReal (Host.gather D x idx) :=
  fun _ => hx _

/-- An accumulating scatter of real updates into a real operand is real. -/
theorem isReal_scatterAdd {s si su : Shape} {w : Nat} (D : ScatterDims s si su) (x : FVec Ideal s .f32) (idx : IVec si w)
    (u : FVec Ideal su .f32) (hx : IsReal x) (hu : IsReal u) : IsReal (Host.scatterAdd D x idx u) := by
  intro i
  show ∃ r : ℝ, Ideal.hostScatterAdd D x idx u i = (r : EReal)
  exact Cert.LibVecGather.hostScatterAdd_real D x idx u i (hx i) hu

/-- A scalar constant broadcast to any shape is an array of reals when its word denotes a real. -/
theorem isReal_splat {t : Shape} (h : (⟨0, ![]⟩ : Shape).BroadcastsInDim t (![] : Fin 0 → Fin t.rank)) (wd : BitVec 32)
    (hw : ∃ r : ℝ, Ideal.ofBits .f32 wd = (r : EReal)) :
    IsReal (broadcastInDim t (![] : Fin 0 → Fin t.rank) h (constant (F := Ideal) ⟨0, ![]⟩ .f32 wd)) :=
  isReal_broadcastInDim _ h (isReal_constant .f32 wd hw)

/-- The word `0x3F800000` denotes a real number (the number one). -/
theorem one_word_real : ∃ r : ℝ, Ideal.ofBits .f32 0x3F800000#32 = (r : EReal) :=
  ofBits_f32_real _ (by decide)

/-- The word `0x00000000` denotes a real number (zero). -/
theorem zero_word_real : ∃ r : ℝ, Ideal.ofBits .f32 0x00000000#32 = (r : EReal) :=
  ⟨0, ofBits_zero⟩

end Cert.Lib.AggReal

end
-- ==== Proof.KernelReal.lean ====
/-
  The in-degrees and the first neighbour aggregate are arrays of real numbers.

  The in-degree is a scatter-add of ones into zeros and the aggregate a scatter-add of gathered input rows into zeros: a
  gather only re-reads entries, and a scatter-add adds finitely many update entries to an operand entry, so real inputs
  give real results whatever the edge list holds.
-/
import proofs.«150517_j41051297415239_1_alg».proof.Proof.HostK
import proofs.«150517_j41051297415239_1_alg».proof.Proof.LibAggReal

noncomputable section

namespace Cert.KernelIdeal.HostSide

open Cert.KernelIdeal Idealize.ShloMosaic Cert.Lib.RealOps Cert.Lib.AggReal

theorem isReal_deg (d : IV32 S1600000) : IsReal (S := S100000) (deg d) :=
  isReal_scatterAdd _ _ _ _ (isReal_splat _ _ zero_word_real) (isReal_splat _ _ one_word_real)

theorem isReal_agg64 (s d : IV32 S1600000) (x : FV32 S100000x64) (hx : IsReal (S := S100000x64) x) :
    IsReal (S := S100000x64) (agg64 s d x) :=
  isReal_scatterAdd _ _ _ _ (isReal_splat _ _ zero_word_real) (isReal_gather _ _ _ hx)

end Cert.KernelIdeal.HostSide

end
-- ==== Proof.RefDefs.lean ====
/-
  The reference program's host functions and its two layers, as the program spells them.

  From the edge list the reference takes the source ids (row 0) and the destination ids (row 1). A node's in-degree is a
  scatter-add of ones at the destination ids into zeros. The neighbour aggregate of a feature matrix gathers its rows at
  the source ids (a negative id wrapped by the node count first) and scatter-adds them at the destination ids into zeros.
  A layer divides the aggregate's row `r` by `max (deg r, 1)` and returns `(mean · Wn + bn + h · Wr) + (h · Wl + bl)`, each
  bias broadcast down the rows; the first layer applies the rectifier.
-/
import proofs.«150517_j41051297415239_1_alg».proof.Proof.Gen.ReferenceIdeal.Run
import Idealize.ShloMosaic.PureOps.Ideal
import Idealize.ShloMosaic.Lib.ValueIdx

set_option maxRecDepth 16384

noncomputable section

namespace Cert.ReferenceIdeal.HostSide

open Cert.ReferenceIdeal Cert.ReferenceIdeal.Gen Idealize.ShloMosaic Idealize.ShloMosaic.TcCoe Idealize.SL.Sem
open Idealize.ShloMosaic.ValueIdx

/-- An integer array and a float array of the ideal reading, by shape. -/
abbrev IV32 (S : Shape) := IVec S 32
abbrev FV32 (S : Shape) := FVec Ideal S .f32

/-- Row 0 of the edge list: every edge's source node. -/
def srcIds (ei : IV32 S2x1600000) : IV32 S1600000 :=
  shapeCast S1600000 (extractStridedSlice S1x1600000 ![0, 0] ei slices_S2x1600000_S1x1600000_0_0) shapeCasts_S1x1600000_S1600000

/-- Row 1 of the edge list: every edge's destination node. -/
def dstIds (ei : IV32 S2x1600000) : IV32 S1600000 :=
  shapeCast S1600000 (extractStridedSlice S1x1600000 ![1, 0] ei slices_S2x1600000_S1x1600000_1_0) shapeCasts_S1x1600000_S1600000

/-- An id vector as a column of start indices. -/
def col (s : IV32 S1600000) : IV32 S1600000x1 := broadcastInDim S1600000x1 ![0] bcast_S1600000_S1600000x1_0 s

/-- An id vector with negative ids wrapped by the node count, as a column of start indices. -/
def wrapCol (s : IV32 S1600000) : IV32 S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The in-degrees: ones scatter-added at the destination ids into zeros. -/
def deg (d : IV32 S1600000) : FV32 S100000 :=
  Host.scatterAdd scatter_S100000_S1600000x1_S1600000_n_0_0_1
    (broadcastInDim S100000 ![] bcast_S_S100000 (constant (F := Ideal) S_ .f32 0x00000000#32)) (col d)
    (broadcastInDim S1600000 ![] bcast_S_S1600000 (constant (F := Ideal) S_ .f32 0x3F800000#32))

/-- The reciprocal of the clamped degree, as a column. -/
def recipCol (dg : FV32 S100000) : FV32 S100000x1 :=
  broadcastInDim S100000x1 ![0] bcast_S100000_S100000x1_0
    (Host.divf (broadcastInDim S100000 ![] bcast_S_S100000 (constant (F := Ideal) S_ .f32 0x3F800000#32))
      (maximumf dg (broadcastInDim S100000 ![] bcast_S_S100000 (constant (F := Ideal) S_ .f32 0x3F800000#32))))

/-- The neighbour aggregate of 64 features. -/
def agg64 (s d : IV32 S1600000) (h : FV32 S100000x64) : FV32 S100000x64 :=
  Host.scatterAdd scatter_S100000x64_S1600000x1_S1600000x64_1_0_0_1
    (broadcastInDim S100000x64 ![] bcast_S_S100000x64 (constant (F := Ideal) S_ .f32 0x00000000#32)) (col d)
    (Host.gather gather_S100000x64_S1600000x1_S1600000x64_1_0_n_n_0_1_164 h (wrapCol s))

/-- The neighbour aggregate of 128 features. -/
def agg128 (s d : IV32 S1600000) (h : FV32 S100000x128) : FV32 S100000x128 :=
  Host.scatterAdd scatter_S100000x128_S1600000x1_S1600000x128_1_0_0_1
    (broadcastInDim S100000x128 ![] bcast_S_S100000x128 (constant (F := Ideal) S_ .f32 0x00000000#32)) (col d)
    (Host.gather gather_S100000x128_S1600000x1_S1600000x128_1_0_n_n_0_1_1128 h (wrapCol s))

/-- The clamped degree as a column broadcast along 64 features. -/
def clamp64 (dg : FV32 S100000) : FV32 S100000x64 :=
  broadcastInDim S100000x64 ![0, 1] bcast_S100000x1_S100000x64_0_1 (broadcastInDim S100000x1 ![0] bcast_S100000_S100000x1_0
    (maximumf dg (broadcastInDim S100000 ![] bcast_S_S100000 (constant (F := Ideal) S_ .f32 0x3F800000#32))))

/-- The clamped degree as a column broadcast along 128 features. -/
def clamp128 (dg : FV32 S100000) : FV32 S100000x128 :=
  broadcastInDim S100000x128 ![0, 1] bcast_S100000x1_S100000x128_0_1 (broadcastInDim S100000x1 ![0] bcast_S100000_S100000x1_0
    (maximumf dg (broadcastInDim S100000 ![] bcast_S_S100000 (constant (F := Ideal) S_ .f32 0x3F800000#32))))

/-- A bias of 128 entries broadcast down the rows. -/
def rows128 (b : FV32 S128) : FV32 S100000x128 :=
  broadcastInDim S100000x128 ![0, 1] bcast_S1x128_S100000x128_0_1 (broadcastInDim S1x128 ![1] bcast_S128_S1x128_1 b)

/-- A bias of 64 entries broadcast down the rows. -/
def rows64 (b : FV32 S64) : FV32 S100000x64 :=
  broadcastInDim S100000x64 ![0, 1] bcast_S1x64_S100000x64_0_1 (broadcastInDim S1x64 ![1] bcast_S64_S1x64_1 b)

/-- The first layer as the reference spells it. -/
def layer1 (s d : IV32 S1600000) (x : FV32 S100000x64) (W1n W1r Wl1 : FV32 S64x128) (b1n bl1 : FV32 S128) : FV32 S100000x128 :=
  maximumf
    (addf
      (addf
        (addf (Host.dotGeneral dot_S100000x64_S64x128_S100000x128_1_0_0_1_n_n none (Host.divf (agg64 s d x) (clamp64 (deg d))) W1n) (rows128 b1n))
        (Host.dotGeneral dot_S100000x64_S64x128_S100000x128_1_0_0_1_n_n none x W1r))
      (addf (Host.dotGeneral dot_S100000x64_S64x128_S100000x128_1_0_0_1_n_n none x Wl1) (rows128 bl1)))
    (broadcastInDim S100000x128 ![] bcast_S_S100000x128 (constant (F := Ideal) S_ .f32 0x00000000#32))

/-- The second layer as the reference spells it. -/
def layer2 (s d : IV32 S1600000) (h : FV32 S100000x128) (W2n W2r Wl2 : FV32 S128x64) (b2n bl2 : FV32 S64) : FV32 S100000x64 :=
  addf
    (addf
      (addf (Host.dotGeneral dot_S100000x128_S128x64_S100000x64_1_0_0_1_n_n none (Host.divf (agg128 s d h) (clamp128 (deg d))) W2n) (rows64 b2n))
      (Host.dotGeneral dot_S100000x128_S128x64_S100000x64_1_0_0_1_n_n none h W2r))
    (addf (Host.dotGeneral dot_S100000x128_S128x64_S100000x64_1_0_0_1_n_n none h Wl2) (rows64 bl2))

end Cert.ReferenceIdeal.HostSide

end
-- ==== Proof.RefStages.lean ====
/-
  The reference run's composed term is its two layers, the second applied to the first's output.

  The run names its result stage by stage, one host operation each. Grouping the stages: the wrapped source column, the
  destination column, the degree, the clamped degree column, the aggregate, the broadcast biases, and then the first
  layer; the same again over the first layer's output for the second.
-/
import proofs.«150517_j41051297415239_1_alg».proof.Proof.RefDefs
import proofs.«150517_j41051297415239_1_alg».proof.Proof.Gen.ReferenceIdeal.Read

set_option maxRecDepth 16384

noncomputable section

namespace Cert.ReferenceIdeal.HostSide

open Cert.ReferenceIdeal Cert.ReferenceIdeal.Gen Idealize.ShloMosaic Idealize.ShloMosaic.TcCoe Idealize.SL.Sem
open Idealize.ShloMosaic.ValueIdx

open Cert.ReferenceIdeal.Read

theorem st_agg64 (x0 : FV32 S100000x64) (x1 : IV32 S2x1600000) : val_main_v13 (F := Ideal) x0 x1 = agg64 (srcIds x1) (dstIds x1) x0 := rfl
theorem st_clamp64 (x1 : IV32 S2x1600000) : val_main_v21 (F := Ideal) x1 = clamp64 (deg (dstIds x1)) := rfl
theorem st_rows_b1n (x3 : FV32 S128) : val_main_v25 (F := Ideal) x3 = rows128 x3 := rfl
theorem st_rows_bl1 (x6 : FV32 S128) : val_main_v31 (F := Ideal) x6 = rows128 x6 := rfl

theorem st_layer1 (x0 : FV32 S100000x64) (x1 : IV32 S2x1600000) (x2 : FV32 S64x128) (x3 : FV32 S128) (x4 x5 : FV32 S64x128) (x6 : FV32 S128) :
    val_main_v34 (F := Ideal) x0 x1 x2 x3 x4 x5 x6 = layer1 (srcIds x1) (dstIds x1) x0 x2 x4 x5 x3 x6 := by
  unfold val_main_v34 val_main_v33 val_main_v28 val_main_v32 val_main_v26 val_main_v23 val_main_v27 val_main_v29 val_main_v22 layer1
  rw [st_agg64, st_clamp64, st_rows_b1n, st_rows_bl1]
  rfl

theorem st_agg128 (x0 : FV32 S100000x64) (x1 : IV32 S2x1600000) (x2 : FV32 S64x128) (x3 : FV32 S128) (x4 x5 : FV32 S64x128) (x6 : FV32 S128) :
    val_main_v44 (F := Ideal) x0 x1 x2 x3 x4 x5 x6 = agg128 (srcIds x1) (dstIds x1) (val_main_v34 (F := Ideal) x0 x1 x2 x3 x4 x5 x6) := rfl
theorem st_clamp128 (x1 : IV32 S2x1600000) : val_main_v52 (F := Ideal) x1 = clamp128 (deg (dstIds x1)) := rfl
theorem st_rows_b2n (x8 : FV32 S64) : val_main_v56 (F := Ideal) x8 = rows64 x8 := rfl
theorem st_rows_bl2 (x11 : FV32 S64) : val_main_v62 (F := Ideal) x11 = rows64 x11 := rfl

theorem st_layer2 (x0 : FV32 S100000x64) (x1 : IV32 S2x1600000) (x2 : FV32 S64x128) (x3 : FV32 S128) (x4 x5 : FV32 S64x128) (x6 : FV32 S128) (x7 : FV32 S128x64) (x8 : FV32 S64) (x9 x10 : FV32 S128x64) (x11 : FV32 S64) :
    val_main_v64 (F := Ideal) x0 x1 x2 x3 x4 x5 x6 x7 x8 x9 x10 x11
      = layer2 (srcIds x1) (dstIds x1) (layer1 (srcIds x1) (dstIds x1) x0 x2 x4 x5 x3 x6) x7 x9 x10 x8 x11 := by
  unfold val_main_v64 val_main_v59 val_main_v63 val_main_v57 val_main_v54 val_main_v58 val_main_v60 val_main_v53 layer2
  rw [st_agg128, st_clamp128, st_rows_b2n, st_rows_bl2, st_layer1]

/-- The run's composed term is the two layers, the second applied to the first's output. -/
theorem result_layers (m : (ℓ : Loc nD τ sig) → Buf (Elt Ideal) ℓ) (c : Dev nD) :
    (Cert.ReferenceIdeal.Value.res_main_v64 (F := Ideal) m c : FV32 S100000x64)
      = layer2 (srcIds (m ((c.tc : Thread nD τ).loc main_arg1))) (dstIds (m ((c.tc : Thread nD τ).loc main_arg1)))
          (layer1 (srcIds (m ((c.tc : Thread nD τ).loc main_arg1))) (dstIds (m ((c.tc : Thread nD τ).loc main_arg1)))
            (m ((c.tc : Thread nD τ).loc main_arg0)) (m ((c.tc : Thread nD τ).loc main_arg2)) (m ((c.tc : Thread nD τ).loc main_arg4))
            (m ((c.tc : Thread nD τ).loc main_arg5)) (m ((c.tc : Thread nD τ).loc main_arg3)) (m ((c.tc : Thread nD τ).loc main_arg6)))
          (m ((c.tc : Thread nD τ).loc main_arg7)) (m ((c.tc : Thread nD τ).loc main_arg9)) (m ((c.tc : Thread nD τ).loc main_arg10))
          (m ((c.tc : Thread nD τ).loc main_arg8)) (m ((c.tc : Thread nD τ).loc main_arg11)) :=
  (val_main_v64_eq (F := Ideal) m c).trans (st_layer2 _ _ _ _ _ _ _ _ _ _ _ _)

end Cert.ReferenceIdeal.HostSide

end
-- ==== Proof.RefLayers.lean ====
/-
  Each of the reference's layers is the specification's written-out layer.

  Read at an entry, a host matrix product is the plain sum over the contracted index, a bias broadcast by two
  re-indexings is the bias entry of the column, the rectifier's broadcast zero is the zero word, and the division by the
  clamped degree column is the mean. The aggregate and the degree enter as arbitrary arrays: nothing about them is used.
-/
import proofs.«150517_j41051297415239_1_alg».proof.Proof.RefDefs
import proofs.«150517_j41051297415239_1_alg».proof.Proof.Gen.ReferenceIdeal.Read
import proofs.«150517_j41051297415239_1_alg».proof.Proof.LibSkipDefs
import proofs.«150517_j41051297415239_1_alg».proof.Proof.LibMatmulSum

set_option maxRecDepth 16384

noncomputable section

namespace Cert.ReferenceIdeal.HostSide

open Cert.ReferenceIdeal Cert.ReferenceIdeal.Gen Idealize.ShloMosaic Idealize.ShloMosaic.TcCoe Idealize.SL.Sem
open Idealize.ShloMosaic.ValueIdx

/-- A host product of a 64-column matrix with a 64-by-128 matrix is the plain sum over the contracted index. -/
theorem dot64_linear (l : FV32 S100000x64) (r : FV32 S64x128) :
    Host.dotGeneral dot_S100000x64_S64x128_S100000x128_1_0_0_1_n_n none l r = Cert.Gcn.linear (R := 100000) (K := 64) (N := 128) l r :=
  funext fun i => Cert.GraphConv.dotGeneral_sum (R := 100000) (K := 64) (N := 128) dot_S100000x64_S64x128_S100000x128_1_0_0_1_n_n none .single rfl rfl
    Cert.ReferenceIdeal.Read.lhs_main_v23_0 Cert.ReferenceIdeal.Read.lhs_main_v23_1 Cert.ReferenceIdeal.Read.rhs_main_v23_0 Cert.ReferenceIdeal.Read.rhs_main_v23_1 l r i

/-- The same for a 128-column matrix and a 128-by-64 matrix. -/
theorem dot128_linear (l : FV32 S100000x128) (r : FV32 S128x64) :
    Host.dotGeneral dot_S100000x128_S128x64_S100000x64_1_0_0_1_n_n none l r = Cert.Gcn.linear (R := 100000) (K := 128) (N := 64) l r :=
  funext fun i => Cert.GraphConv.dotGeneral_sum (R := 100000) (K := 128) (N := 64) dot_S100000x128_S128x64_S100000x64_1_0_0_1_n_n none .single rfl rfl
    Cert.ReferenceIdeal.Read.lhs_main_v54_0 Cert.ReferenceIdeal.Read.lhs_main_v54_1 Cert.ReferenceIdeal.Read.rhs_main_v54_0 Cert.ReferenceIdeal.Read.rhs_main_v54_1 l r i

/-- Dividing by the clamped degree column is the mean, along 64 features. -/
theorem div_clamp64 (A : FV32 S100000x64) (dg : FV32 S100000) : Host.divf A (clamp64 dg) = Cert.SageMean.meanDiv A dg :=
  Cert.SageMean.meanDiv_host A dg _ bcast_S100000_S100000x1_0 bcast_S100000x1_S100000x64_0_1
    (fun j => Cert.SageMean.splat_apply bcast_S_S100000 _ j)

/-- Dividing by the clamped degree column is the mean, along 128 features. -/
theorem div_clamp128 (A : FV32 S100000x128) (dg : FV32 S100000) : Host.divf A (clamp128 dg) = Cert.SageMean.meanDiv A dg :=
  Cert.SageMean.meanDiv_host A dg _ bcast_S100000_S100000x1_0 bcast_S100000x1_S100000x128_0_1
    (fun j => Cert.SageMean.splat_apply bcast_S_S100000 _ j)

/-- The first layer's spelling over an arbitrary aggregate `A` and degree `dg` is the written-out layer with the rectifier. -/
theorem layer1_form (A x : FV32 S100000x64) (dg : FV32 S100000) (W1n W1r Wl1 : FV32 S64x128) (b1n bl1 : FV32 S128) :
    maximumf
      (addf
        (addf
          (addf (Host.dotGeneral dot_S100000x64_S64x128_S100000x128_1_0_0_1_n_n none (Host.divf A (clamp64 dg)) W1n) (rows128 b1n))
          (Host.dotGeneral dot_S100000x64_S64x128_S100000x128_1_0_0_1_n_n none x W1r))
        (addf (Host.dotGeneral dot_S100000x64_S64x128_S100000x128_1_0_0_1_n_n none x Wl1) (rows128 bl1)))
      (broadcastInDim S100000x128 ![] bcast_S_S100000x128 (constant (F := Ideal) S_ .f32 0x00000000#32))
      = Cert.SageSkip.skipRelu (R := 100000) (K := 64) (N := 128) (Cert.SageMean.meanDiv A dg) x W1n W1r Wl1 b1n bl1 := by
  funext i
  obtain ⟨r, c, rfl⟩ : ∃ (r : Fin 100000) (c : Fin 128), i = ix2 r c := ⟨i 0, i 1, eq_ix2 i⟩
  unfold rows128
  rw [div_clamp64, dot64_linear, dot64_linear, dot64_linear]
  simp only [maximumf_apply, addf_apply, Cert.Gcn.rowBroadcast_host, Cert.Gcn.splat_host]
  rfl

/-- The second layer's spelling over an arbitrary aggregate and degree is the written-out layer. -/
theorem layer2_form (A h : FV32 S100000x128) (dg : FV32 S100000) (W2n W2r Wl2 : FV32 S128x64) (b2n bl2 : FV32 S64) :
    addf
      (addf
        (addf (Host.dotGeneral dot_S100000x128_S128x64_S100000x64_1_0_0_1_n_n none (Host.divf A (clamp128 dg)) W2n) (rows64 b2n))
        (Host.dotGeneral dot_S100000x128_S128x64_S100000x64_1_0_0_1_n_n none h W2r))
      (addf (Host.dotGeneral dot_S100000x128_S128x64_S100000x64_1_0_0_1_n_n none h Wl2) (rows64 bl2))
      = Cert.SageSkip.skipLin (R := 100000) (K := 128) (N := 64) (Cert.SageMean.meanDiv A dg) h W2n W2r Wl2 b2n bl2 := by
  funext i
  obtain ⟨r, c, rfl⟩ : ∃ (r : Fin 100000) (c : Fin 64), i = ix2 r c := ⟨i 0, i 1, eq_ix2 i⟩
  unfold rows64
  rw [div_clamp128, dot128_linear, dot128_linear, dot128_linear]
  simp only [addf_apply, Cert.Gcn.rowBroadcast_host]
  rfl

/-- The first layer is the written-out layer with the rectifier. -/
theorem layer1_eq (s d : IV32 S1600000) (x : FV32 S100000x64) (W1n W1r Wl1 : FV32 S64x128) (b1n bl1 : FV32 S128) :
    layer1 s d x W1n W1r Wl1 b1n bl1
      = Cert.SageSkip.skipRelu (R := 100000) (K := 64) (N := 128) (Cert.SageMean.meanDiv (agg64 s d x) (deg d)) x W1n W1r Wl1 b1n bl1 :=
  layer1_form (agg64 s d x) x (deg d) W1n W1r Wl1 b1n bl1

/-- The second layer is the written-out layer. -/
theorem layer2_eq (s d : IV32 S1600000) (h : FV32 S100000x128) (W2n W2r Wl2 : FV32 S128x64) (b2n bl2 : FV32 S64) :
    layer2 s d h W2n W2r Wl2 b2n bl2
      = Cert.SageSkip.skipLin (R := 100000) (K := 128) (N := 64) (Cert.SageMean.meanDiv (agg128 s d h) (deg d)) h W2n W2r Wl2 b2n bl2 :=
  layer2_form (agg128 s d h) h (deg d) W2n W2r Wl2 b2n bl2

end Cert.ReferenceIdeal.HostSide

end
-- ==== Proof.LibSkipLaw.lean ====
/-
  The folded layer is the layer written out, and the hidden features are real numbers.

  A layer with a skip connection computes, entry by entry,
      (A · Wn + bn + X · Wr) + (X · Wl + bl),
  and the folded form computes
      A · Wn + X · (Wr + Wl) + (bn + bl).
  On the extended reals multiplication distributes over addition only away from the infinities
  (⊤ · (1 + -1) = ⊤ · 0 = 0, while ⊤ · 1 + ⊤ · (-1) = ⊤ + ⊥ = ⊥), so the identity
      X · (Wr + Wl) = X · Wr + X · Wl
  is proved for real X, Wr, Wl: each term is a product of reals, where x (a + b) = x a + x b holds in ℝ, and the finite
  sums are split by additivity. Everything else — the neighbour product A · Wn and the two biases — may be any extended
  reals: only commutativity and associativity of addition are used for them.

  The first layer's output is fed to the second layer's products of X, so it has to be real: the mean of a real
  aggregate by a real degree clamped below at one is real (the divisor is a real ≥ 1), products and sums of reals are
  real, and the rectifier takes the larger of a real and the real 0. With that, two layers in the folded form, the mean
  taken by the reciprocal, are the two layers written out with the mean taken by division.
-/
import proofs.«150517_j41051297415239_1_alg».proof.Proof.LibSkipDefs
import proofs.«150517_j41051297415239_1_alg».proof.Proof.LibRealOps

noncomputable section

namespace Cert.SageSkip

open Idealize.ShloMosaic Idealize.ShloMosaic.ValueIdx Cert.Gcn Cert.Sage Cert.SageMean Cert.Lib.RealOps

variable {R K N : ℕ}

/-- The larger of two reals is a real. -/
theorem real_max {a b : EReal} (ha : ∃ r : ℝ, a = (r : EReal)) (hb : ∃ r : ℝ, b = (r : EReal)) :
    ∃ r : ℝ, max a b = (r : EReal) := by
  rcases max_choice a b with h | h
  · rw [h]; exact ha
  · rw [h]; exact hb

/-- The product with a sum of two real matrices is the sum of the products, when the left factor is real too. -/
theorem linear_add_right (X : FVec Ideal ⟨2, ![R, K]⟩ .f32) (Wa Wb : FVec Ideal ⟨2, ![K, N]⟩ .f32)
    (hX : IsReal X) (ha : IsReal Wa) (hb : IsReal Wb) (i : (⟨2, ![R, N]⟩ : Shape).Idx) :
    linear X (addf Wa Wb) i = linear X Wa i + linear X Wb i := by
  unfold linear
  rw [← Finset.sum_add_distrib]
  refine Finset.sum_congr rfl fun k _ => ?_
  obtain ⟨x, hx⟩ := hX (ix2 (i 0) k)
  obtain ⟨a, ha'⟩ := ha (ix2 k (i 1))
  obtain ⟨b, hb'⟩ := hb (ix2 k (i 1))
  rw [addf_apply, hx, ha', hb', ← EReal.coe_add, ← EReal.coe_mul, ← EReal.coe_mul, ← EReal.coe_mul, ← EReal.coe_add,
    mul_add]

/-- The folded layer without rectifier is the layer written out. -/
theorem combineLin_fold (A X : FVec Ideal ⟨2, ![R, K]⟩ .f32) (Wn Wr Wl : FVec Ideal ⟨2, ![K, N]⟩ .f32) (bn bl : FVec Ideal ⟨1, ![N]⟩ .f32)
    (hX : IsReal X) (hr : IsReal Wr) (hl : IsReal Wl) :
    combineLin A X Wn (addf Wr Wl) (addf bn bl) = skipLin A X Wn Wr Wl bn bl := by
  funext i
  show linear A Wn i + linear X (addf Wr Wl) i + addf bn bl (ix1 (i 1))
    = ((linear A Wn i + bn (ix1 (i 1))) + linear X Wr i) + (linear X Wl i + bl (ix1 (i 1)))
  rw [linear_add_right X Wr Wl hX hr hl i, addf_apply]
  abel

/-- The folded layer with rectifier is the layer written out. -/
theorem combine_fold (A X : FVec Ideal ⟨2, ![R, K]⟩ .f32) (Wn Wr Wl : FVec Ideal ⟨2, ![K, N]⟩ .f32) (bn bl : FVec Ideal ⟨1, ![N]⟩ .f32)
    (hX : IsReal X) (hr : IsReal Wr) (hl : IsReal Wl) :
    combine A X Wn (addf Wr Wl) (addf bn bl) = skipRelu A X Wn Wr Wl bn bl := by
  funext i
  show max (combineLin A X Wn (addf Wr Wl) (addf bn bl) i) (Ideal.ofBits .f32 0x00000000#32)
    = max (skipLin A X Wn Wr Wl bn bl i) (Ideal.ofBits .f32 0x00000000#32)
  rw [combineLin_fold A X Wn Wr Wl bn bl hX hr hl]

/-- A product of two real matrices is real. -/
theorem isReal_linear {X : FVec Ideal ⟨2, ![R, K]⟩ .f32} {W : FVec Ideal ⟨2, ![K, N]⟩ .f32} (hX : IsReal X) (hW : IsReal W) :
    IsReal (linear X W) :=
  fun _ => real_sum _ _ fun _ _ => real_mul (hX _) (hW _)

/-- The mean, by the reciprocal, of a real aggregate by a real degree is real: the clamped degree is a real ≥ 1. -/
theorem isReal_meanMul {A : FVec Ideal ⟨2, ![R, K]⟩ .f32} {d : FVec Ideal ⟨1, ![R]⟩ .f32} (hA : IsReal A) (hd : IsReal d) :
    IsReal (meanMul A d) := by
  intro i
  obtain ⟨a, ha⟩ := hA i
  obtain ⟨t, ht⟩ := hd (ix1 (i 0))
  have hne : max t 1 ≠ 0 := (lt_of_lt_of_le zero_lt_one (le_max_right t 1)).ne'
  have h1 : Ideal.ofBits .f32 0x3F800000#32 = ((1 : ℝ) : EReal) := by rw [one_word, EReal.coe_one]
  refine ⟨a * (1 / max t 1), ?_⟩
  show A i * Ideal.div (Ideal.ofBits .f32 0x3F800000#32) (max (d (ix1 (i 0))) (Ideal.ofBits .f32 0x3F800000#32)) = _
  rw [h1, ha, ht, ← EReal.coe_strictMono.monotone.map_max, div_real 1 hne, EReal.coe_mul]

/-- A layer of real arrays is real. -/
theorem isReal_combine {A X : FVec Ideal ⟨2, ![R, K]⟩ .f32} {Wl Wr : FVec Ideal ⟨2, ![K, N]⟩ .f32} {b : FVec Ideal ⟨1, ![N]⟩ .f32}
    (hA : IsReal A) (hX : IsReal X) (hl : IsReal Wl) (hr : IsReal Wr) (hb : IsReal b) : IsReal (combine A X Wl Wr b) := by
  intro i
  show ∃ r : ℝ, max (linear A Wl i + linear X Wr i + b (ix1 (i 1))) (Ideal.ofBits .f32 0x00000000#32) = (r : EReal)
  exact real_max (real_add (real_add (isReal_linear hA hl i) (isReal_linear hX hr i)) (hb _)) ⟨0, ofBits_zero⟩

/-- The two networks are one function when the inputs and the first layer's aggregate are real numbers. -/
theorem network_eq {K1 K2 K3 : ℕ}
    (agg₁ : FVec Ideal ⟨2, ![R, K1]⟩ .f32 → FVec Ideal ⟨2, ![R, K1]⟩ .f32) (agg₂ : FVec Ideal ⟨2, ![R, K2]⟩ .f32 → FVec Ideal ⟨2, ![R, K2]⟩ .f32)
    (d : FVec Ideal ⟨1, ![R]⟩ .f32) (x : FVec Ideal ⟨2, ![R, K1]⟩ .f32)
    (W1n W1r Wl1 : FVec Ideal ⟨2, ![K1, K2]⟩ .f32) (b1n bl1 : FVec Ideal ⟨1, ![K2]⟩ .f32)
    (W2n W2r Wl2 : FVec Ideal ⟨2, ![K2, K3]⟩ .f32) (b2n bl2 : FVec Ideal ⟨1, ![K3]⟩ .f32)
    (hx : IsReal x) (hd : IsReal d) (hagg : IsReal (agg₁ x))
    (hW1n : IsReal W1n) (hW1r : IsReal W1r) (hWl1 : IsReal Wl1) (hb1n : IsReal b1n) (hbl1 : IsReal bl1)
    (hW2r : IsReal W2r) (hWl2 : IsReal Wl2) :
    combineLin (meanMul (agg₂ (combine (meanMul (agg₁ x) d) x W1n (addf W1r Wl1) (addf b1n bl1))) d)
        (combine (meanMul (agg₁ x) d) x W1n (addf W1r Wl1) (addf b1n bl1)) W2n (addf W2r Wl2) (addf b2n bl2)
      = skipLin (meanDiv (agg₂ (skipRelu (meanDiv (agg₁ x) d) x W1n W1r Wl1 b1n bl1)) d)
          (skipRelu (meanDiv (agg₁ x) d) x W1n W1r Wl1 b1n bl1) W2n W2r Wl2 b2n bl2 := by
  have hreal : IsReal (combine (meanMul (agg₁ x) d) x W1n (addf W1r Wl1) (addf b1n bl1)) :=
    isReal_combine (isReal_meanMul hagg hd) hx hW1n (isReal_addf hW1r hWl1) (isReal_addf hb1n hbl1)
  have h1 : combine (meanMul (agg₁ x) d) x W1n (addf W1r Wl1) (addf b1n bl1)
      = skipRelu (meanDiv (agg₁ x) d) x W1n W1r Wl1 b1n bl1 := by
    rw [combine_fold _ _ _ _ _ _ _ hx hW1r hWl1, meanMul_eq_meanDiv]
  rw [combineLin_fold _ _ _ _ _ _ _ hreal hW2r hWl2, meanMul_eq_meanDiv, h1]

end Cert.SageSkip

end
-- ==== Proof.FiniteArgs.lean ====
/-
  From the precondition to "every float argument is an array of real numbers".

  The precondition is the conjunction, over the eleven float arguments, of "every entry x has |x| < +∞", each
  conjunct a reduction by `and` of the entrywise comparisons, from the constant one. On the extended reals
  |x| = max x (-x), and the word 0x7F800000 is +∞ = ⊤; max x (-x) < ⊤ fails at x = ⊤ (the maximum is ⊤) and at
  x = ⊥ (then -x = ⊤), so it holds exactly at the real numbers. A reduction by `and` that is one had a one at
  every entry, and a conjunction that is one has both of its parts one.
-/
import proofs.«150517_j41051297415239_1_alg».proof.Defs
import proofs.«150517_j41051297415239_1_alg».proof.Proof.LibRealOps
import Idealize.ShloMosaic.Lib.ReduceAll
import Idealize.ShloMosaic.Lib.ValueIdx

noncomputable section

namespace Cert.KernelIdeal.FiniteArgs

open Idealize.ShloMosaic Idealize.SL.Sem Cert.Lib.RealOps

/-- The word `0x7F800000` is +∞. -/
theorem inf_word : Ideal.ofBits .f32 0x7F800000#32 = ⊤ := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The scalar shape has one index. -/
instance : Subsingleton (⟨0, ![]⟩ : Shape).Idx := ⟨fun a b => funext fun d => d.elim0⟩

/-- A conjunction of two bits is one exactly when both are, at any index. -/
theorem andi_eq_one_iff {S : Shape} (x y : IVec S 1) (i : S.Idx) : andi x y i = 1#1 ↔ x i = 1#1 ∧ y i = 1#1 :=
  IntOp.andi_eq_one

/-- `all (|a| < +∞) = 1` says that every entry of `a` is a real number. -/
theorem isReal_of_all {S : Shape} {axes : List (Fin S.rank)} (a : FVec Ideal S .f32)
    (hb : (⟨0, ![]⟩ : Shape).BroadcastsInDim S (![] : Fin 0 → Fin S.rank))
    (hred : S.ReducesTo axes ⟨0, ![]⟩) (hu : 0 < (⟨0, ![]⟩ : Shape).numel) (init : IVec ⟨0, ![]⟩ 1)
    (j : (⟨0, ![]⟩ : Shape).Idx)
    (e : Host.reduce IntOp.andi
          (cmpf .olt (Host.absf a)
            (broadcastInDim S (![] : Fin 0 → Fin S.rank) hb (constant (F := Ideal) ⟨0, ![]⟩ .f32 0x7F800000#32)))
          init hred hu j = 1#1) : IsReal a := by
  intro i
  have hi := Host.reduce_andi_all _ init hred hu j e i
  have hi' : Ideal.cmp .olt (max (a i) (-(a i))) (Ideal.ofBits .f32 0x7F800000#32) = 1#1 := hi
  rw [inf_word] at hi'
  refine real_of_abs_lt_top (a i) ?_
  by_contra hn
  have : Ideal.cmp .olt (max (a i) (-(a i))) ⊤ = 0#1 := by
    unfold Ideal.cmp
    dsimp only
    rw [decide_eq_false hn]
    rfl
  rw [this] at hi'
  exact absurd hi' (by decide)

/-- Under the precondition every float argument of the kernel is an array of real numbers. -/
theorem real_args [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal (S := ⟨2, ![100000, 64]⟩) (m ((c.tc : Thread Cert.KernelIdeal.nD Cert.KernelIdeal.τ).loc Cert.KernelIdeal.main_arg0))
    ∧ IsReal (S := ⟨2, ![64, 128]⟩) (m ((c.tc : Thread Cert.KernelIdeal.nD Cert.KernelIdeal.τ).loc Cert.KernelIdeal.main_arg2))
    ∧ IsReal (S := ⟨1, ![128]⟩) (m ((c.tc : Thread Cert.KernelIdeal.nD Cert.KernelIdeal.τ).loc Cert.KernelIdeal.main_arg3))
    ∧ IsReal (S := ⟨2, ![64, 128]⟩) (m ((c.tc : Thread Cert.KernelIdeal.nD Cert.KernelIdeal.τ).loc Cert.KernelIdeal.main_arg4))
    ∧ IsReal (S := ⟨2, ![64, 128]⟩) (m ((c.tc : Thread Cert.KernelIdeal.nD Cert.KernelIdeal.τ).loc Cert.KernelIdeal.main_arg5))
    ∧ IsReal (S := ⟨1, ![128]⟩) (m ((c.tc : Thread Cert.KernelIdeal.nD Cert.KernelIdeal.τ).loc Cert.KernelIdeal.main_arg6))
    ∧ IsReal (S := ⟨2, ![128, 64]⟩) (m ((c.tc : Thread Cert.KernelIdeal.nD Cert.KernelIdeal.τ).loc Cert.KernelIdeal.main_arg7))
    ∧ IsReal (S := ⟨1, ![64]⟩) (m ((c.tc : Thread Cert.KernelIdeal.nD Cert.KernelIdeal.τ).loc Cert.KernelIdeal.main_arg8))
    ∧ IsReal (S := ⟨2, ![128, 64]⟩) (m ((c.tc : Thread Cert.KernelIdeal.nD Cert.KernelIdeal.τ).loc Cert.KernelIdeal.main_arg9))
    ∧ IsReal (S := ⟨2, ![128, 64]⟩) (m ((c.tc : Thread Cert.KernelIdeal.nD Cert.KernelIdeal.τ).loc Cert.KernelIdeal.main_arg10))
    ∧ IsReal (S := ⟨1, ![64]⟩) (m ((c.tc : Thread Cert.KernelIdeal.nD Cert.KernelIdeal.τ).loc Cert.KernelIdeal.main_arg11)) := by
  have e := congrFun (h c) ValueIdx.ix0
  dsimp only [Cert.Pre_finite_inputs.fn, Cert.Pre_finite_inputs.fn_part1, Cert.Pre_finite_inputs.fn_part2,
    Cert.Pre_finite_inputs.fn_part3] at e
  simp only [andi_eq_one_iff] at e
  obtain ⟨⟨⟨⟨⟨⟨⟨⟨⟨⟨e0, e2⟩, e3⟩, e4⟩, e5⟩, e6⟩, e7⟩, e8⟩, e9⟩, e10⟩, e11⟩ := e
  exact ⟨isReal_of_all _ _ _ _ _ _ e0, isReal_of_all _ _ _ _ _ _ e2, isReal_of_all _ _ _ _ _ _ e3,
    isReal_of_all _ _ _ _ _ _ e4, isReal_of_all _ _ _ _ _ _ e5, isReal_of_all _ _ _ _ _ _ e6,
    isReal_of_all _ _ _ _ _ _ e7, isReal_of_all _ _ _ _ _ _ e8, isReal_of_all _ _ _ _ _ _ e9,
    isReal_of_all _ _ _ _ _ _ e10, isReal_of_all _ _ _ _ _ _ e11⟩

end Cert.KernelIdeal.FiniteArgs

end
-- ==== Proof.Bridge.lean ====
/-
  The kernel program's result and the reference's result are the same array.

  From memories that agree on the arguments, both programs take the same source and destination ids, the same in-degrees
  and the same neighbour aggregates: their host operations for these are the same functions. The kernel program's value is
  the network with each layer's root and skip products folded into one product and the mean taken by the reciprocal; the
  reference's is the network written out with the mean taken by division. The two agree when the inputs are arrays of real
  numbers (the precondition): the fold is left distributivity, which needs real features and real weights, and the hidden
  features are real because the inputs, the degrees and the first aggregate are.
-/
import proofs.«150517_j41051297415239_1_alg».proof.Proof.KernelValue
import proofs.«150517_j41051297415239_1_alg».proof.Proof.KernelReal
import proofs.«150517_j41051297415239_1_alg».proof.Proof.RefStages
import proofs.«150517_j41051297415239_1_alg».proof.Proof.RefLayers
import proofs.«150517_j41051297415239_1_alg».proof.Proof.LibSkipLaw
import proofs.«150517_j41051297415239_1_alg».proof.Proof.FiniteArgs

set_option maxRecDepth 16384

noncomputable section

namespace Cert.Proof.Bridge

open Idealize.ShloMosaic Idealize.ShloMosaic.TcCoe Idealize.SL.Sem Cert.Lib.RealOps

/-! ## The two programs' host functions are the same functions -/

theorem srcIds_same : Cert.ReferenceIdeal.HostSide.srcIds = Cert.KernelIdeal.HostSide.srcIds := rfl
theorem dstIds_same : Cert.ReferenceIdeal.HostSide.dstIds = Cert.KernelIdeal.HostSide.dstIds := rfl
theorem deg_same : Cert.ReferenceIdeal.HostSide.deg = Cert.KernelIdeal.HostSide.deg := rfl
theorem agg64_same : Cert.ReferenceIdeal.HostSide.agg64 = Cert.KernelIdeal.HostSide.agg64 := rfl
theorem agg128_same : Cert.ReferenceIdeal.HostSide.agg128 = Cert.KernelIdeal.HostSide.agg128 := rfl

/-! ## The values -/

/-- Under the precondition, from memories agreeing on the arguments, the reference's result term is what the kernel
    program leaves in its result array. -/
theorem value_eq [hPre_finite_inputs : Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    (Cert.ReferenceIdeal.Value.res_main_v64 (F := Ideal) m' c : Cert.KernelIdeal.HostSide.FV32 Cert.KernelIdeal.S100000x64)
      = Cert.KernelIdeal.Gen.W4 m ρ c (Proc.devRef .tc Cert.KernelIdeal.main_v44) := by
  obtain ⟨h0, h2, h3, h4, h5, h6, h7, h8, h9, h10, h11⟩ := Cert.KernelIdeal.FiniteArgs.real_args m hpre c
  rw [Cert.KernelIdeal.Whole.kernel_value m ρ c, Cert.ReferenceIdeal.HostSide.result_layers m' c,
    Cert.ReferenceIdeal.HostSide.layer1_eq, Cert.ReferenceIdeal.HostSide.layer2_eq,
    e0, e1, e2, e3, e4, e5, e6, e7, e8, e9, e10, e11,
    srcIds_same, dstIds_same, deg_same, agg64_same, agg128_same]
  unfold Cert.KernelIdeal.Whole.hidden
  exact (Cert.SageSkip.network_eq (R := 100000) (K1 := 64) (K2 := 128) (K3 := 64)
    (Cert.KernelIdeal.HostSide.agg64 (Cert.KernelIdeal.Whole.src m c) (Cert.KernelIdeal.Whole.dst m c))
    (Cert.KernelIdeal.HostSide.agg128 (Cert.KernelIdeal.Whole.src m c) (Cert.KernelIdeal.Whole.dst m c))
    (Cert.KernelIdeal.HostSide.deg (Cert.KernelIdeal.Whole.dst m c))
    (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg3)) (m ((c.tc : Thread Cert.KernelIdeal.nD Cert.KernelIdeal.τ).loc Cert.KernelIdeal.main_arg6))
    (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg8)) (m ((c.tc : Thread Cert.KernelIdeal.nD Cert.KernelIdeal.τ).loc Cert.KernelIdeal.main_arg11))
    h0 (Cert.KernelIdeal.HostSide.isReal_deg _) (Cert.KernelIdeal.HostSide.isReal_agg64 _ _ _ h0)
    h2 h4 h5 h3 h6 h9 h10).symm

end Cert.Proof.Bridge

end
-- ==== Proof.lean ====
/-
  A two-layer graph network with skip connections: the tiled kernel program against the plain reference.

  Both programs take the edge list's source and destination ids, compute every node's in-degree, and apply two layers to
  the node features. A layer averages each node's neighbour features (gather at the sources, scatter-add at the
  destinations, divide by the clamped degree) and returns `mean · Wn + bn + h · Wr + (h · Wl + bl)`; the first layer applies
  the rectifier. The kernel program computes each layer in row blocks of 5000 nodes inside a region, from the mean taken by
  a reciprocal, the root and skip weights added into one matrix and the two biases added into one row.

  The three frames are the generated ones (the reference's is its generated run with the result dropped). The
  idealization rewrote no operation, so there is nothing to preserve. For the equality of results the kernel program's
  run is read with its result array named, that array is the second region's layer of the first region's layer of the
  launch memory (each region's blocks are restrictions of one whole-array function and cover the array), the
  reference's run is its two layers written out, and the two networks agree on real inputs.
-/
import proofs.«150517_j41051297415239_1_alg».proof.Defs
import proofs.«150517_j41051297415239_1_alg».proof.Proof.Gen.Kernel
import proofs.«150517_j41051297415239_1_alg».proof.Proof.Gen.Kernel.Frame
import proofs.«150517_j41051297415239_1_alg».proof.Proof.Gen.KernelIdeal
import proofs.«150517_j41051297415239_1_alg».proof.Proof.Gen.KernelIdeal.Frame
import proofs.«150517_j41051297415239_1_alg».proof.Proof.Gen.ReferenceIdeal
import proofs.«150517_j41051297415239_1_alg».proof.Proof.Gen.ReferenceIdeal.Run
import proofs.«150517_j41051297415239_1_alg».proof.Proof.Gen.Pre_finite_inputs
import proofs.«150517_j41051297415239_1_alg».proof.Proof.KernelRun
import proofs.«150517_j41051297415239_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs run, and end with the same result array: the kernel program's named run, the reference's
    generated run, and the equality of the two values under the precondition. -/
theorem algebraic : Cert.algebraic_KernelIdeal_ReferenceIdeal := by
  intro m ρ m' ρ' hpre hagree
  refine ⟨fun c => Cert.KernelIdeal.Gen.W4 m ρ c (Proc.devRef .tc Cert.KernelIdeal.main_v44),
    Cert.KernelIdeal.Whole.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  exact Cert.Proof.Bridge.value_eq m ρ m' c hpre e0 e1 e2 e3 e4 e5 e6 e7 e8 e9 e10 e11

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
